-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg13 : FVec F S64 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg9 : FVec F S64x64 .f32) (main_arg10 : FVec F S64 .f32) (main_arg11 : FVec F S64x64 .f32) (main_arg12 : FVec F S64 .f32) (main_arg13 : FVec F S64 .f32) (main_arg14 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S512x64 : Shape := ⟨2, ![512, 64]⟩
abbrev S100000x1 : Shape := ⟨2, ![100000, 1]⟩
abbrev S512x1 : Shape := ⟨2, ![512, 1]⟩

abbrev nBuf : Space → Nat
  | .hbm => 132
  | .vmem => 36
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64, .f32⟩
  | 14 => ⟨S64, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S1x64, .f32⟩
  | 33 => ⟨S1x64, .f32⟩
  | 34 => ⟨S100000x64, .f32⟩
  | 35 => ⟨S_, .f32⟩
  | 36 => ⟨S64, .f32⟩
  | 37 => ⟨S_, .f32⟩
  | 38 => ⟨S64, .f32⟩
  | 39 => ⟨S64, .f32⟩
  | 40 => ⟨S_, .i32⟩
  | 41 => ⟨S_, .f32⟩
  | 42 => ⟨S64, .f32⟩
  | 43 => ⟨S1x64, .f32⟩
  | 44 => ⟨S_, .f32⟩
  | 45 => ⟨S1x64, .f32⟩
  | 46 => ⟨S1x64, .f32⟩
  | 47 => ⟨S100000x64, .f32⟩
  | 48 => ⟨S100000x64, .f32⟩
  | 49 => ⟨S100000x64, .f32⟩
  | 50 => ⟨S_, .f32⟩
  | 51 => ⟨S_, .f32⟩
  | 52 => ⟨S_, .f32⟩
  | 53 => ⟨S_, .f32⟩
  | 54 => ⟨S64, .f32⟩
  | 55 => ⟨S64, .f32⟩
  | 56 => ⟨S64, .f32⟩
  | 57 => ⟨S_, .f32⟩
  | 58 => ⟨S_, .i1⟩
  | 59 => ⟨S_, .f32⟩
  | 60 => ⟨S_, .f32⟩
  | 61 => ⟨S64, .f32⟩
  | 62 => ⟨S64, .f32⟩
  | 63 => ⟨S1x64, .f32⟩
  | 64 => ⟨S1x64, .f32⟩
  | 65 => ⟨S1x64, .f32⟩
  | 66 => ⟨S1x64, .f32⟩
  | 67 => ⟨S100000x64, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x64, .f32⟩
  | 77 => ⟨S_, .f32⟩
  | 78 => ⟨S100000x64, .f32⟩
  | 79 => ⟨S1600000x1, .i32⟩
  | 80 => ⟨S100000x64, .f32⟩
  | 81 => ⟨S1x64, .f32⟩
  | 82 => ⟨S1x64, .f32⟩
  | 83 => ⟨S100000x64, .f32⟩
  | 84 => ⟨S_, .f32⟩
  | 85 => ⟨S64, .f32⟩
  | 86 => ⟨S_, .f32⟩
  | 87 => ⟨S64, .f32⟩
  | 88 => ⟨S64, .f32⟩
  | 89 => ⟨S_, .i32⟩
  | 90 => ⟨S_, .f32⟩
  | 91 => ⟨S64, .f32⟩
  | 92 => ⟨S1x64, .f32⟩
  | 93 => ⟨S_, .f32⟩
  | 94 => ⟨S1x64, .f32⟩
  | 95 => ⟨S1x64, .f32⟩
  | 96 => ⟨S100000x64, .f32⟩
  | 97 => ⟨S100000x64, .f32⟩
  | 98 => ⟨S100000x64, .f32⟩
  | 99 => ⟨S_, .f32⟩
  | 100 => ⟨S_, .f32⟩
  | 101 => ⟨S_, .f32⟩
  | 102 => ⟨S_, .f32⟩
  | 103 => ⟨S64, .f32⟩
  | 104 => ⟨S64, .f32⟩
  | 105 => ⟨S64, .f32⟩
  | 106 => ⟨S_, .f32⟩
  | 107 => ⟨S_, .i1⟩
  | 108 => ⟨S_, .f32⟩
  | 109 => ⟨S_, .f32⟩
  | 110 => ⟨S64, .f32⟩
  | 111 => ⟨S64, .f32⟩
  | 112 => ⟨S1x64, .f32⟩
  | 113 => ⟨S1x64, .f32⟩
  | 114 => ⟨S1x64, .f32⟩
  | 115 => ⟨S1x64, .f32⟩
  | 116 => ⟨S100000x64, .f32⟩
  | 117 => ⟨S_, .f32⟩
  | 118 => ⟨S512x64, .f32⟩
  | 119 => ⟨S100000x1, .i32⟩
  | 120 => ⟨S512x64, .f32⟩
  | 121 => ⟨S_, .f32⟩
  | 122 => ⟨S100000x1, .f32⟩
  | 123 => ⟨S_, .f32⟩
  | 124 => ⟨S512x1, .f32⟩
  | 125 => ⟨S100000x1, .i32⟩
  | 126 => ⟨S512x1, .f32⟩
  | 127 => ⟨S_, .f32⟩
  | _ => ⟨S100000x128, .f32⟩

abbrev hbmTy0_1 (i : Nat) : BufTy := match i % 128 with
  | 0 => ⟨S512x1, .f32⟩
  | 1 => ⟨S512x1, .f32⟩
  | 2 => ⟨S512x64, .f32⟩
  | 3 => ⟨S512x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_c_3 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_cst_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_cst_1 : Ref sig .tc := ⟨.hbm, 51, rfl⟩
abbrev main_call0_v8 : Ref sig .tc := ⟨.hbm, 52, rfl⟩
abbrev main_call0_cst_2 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_cst_3 : Ref sig .tc := ⟨.hbm, 57, rfl⟩
abbrev main_call0_v12 : Ref sig .tc := ⟨.hbm, 58, rfl⟩
abbrev main_call0_cst_4 : Ref sig .tc := ⟨.hbm, 59, rfl⟩
abbrev main_call0_call0_v0 : Ref sig .tc := ⟨.hbm, 60, rfl⟩
abbrev main_call0_call0_v1 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_c_4 : Ref sig .tc := ⟨.hbm, 68, rfl⟩
abbrev main_v26 : Ref sig .tc := ⟨.hbm, 69, rfl⟩
abbrev main_v27 : Ref sig .tc := ⟨.hbm, 70, rfl⟩
abbrev main_c_5 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_cst_6 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_cst_7 : Ref sig .tc := ⟨.hbm, 84, rfl⟩
abbrev main_v39 : Ref sig .tc := ⟨.hbm, 85, rfl⟩
abbrev main_cst_8 : Ref sig .tc := ⟨.hbm, 86, rfl⟩
abbrev main_v40 : Ref sig .tc := ⟨.hbm, 87, rfl⟩
abbrev main_v41 : Ref sig .tc := ⟨.hbm, 88, rfl⟩
abbrev main_c_9 : Ref sig .tc := ⟨.hbm, 89, rfl⟩
abbrev main_call1_cst : Ref sig .tc := ⟨.hbm, 90, rfl⟩
abbrev main_call1_v0 : Ref sig .tc := ⟨.hbm, 91, rfl⟩
abbrev main_call1_v1 : Ref sig .tc := ⟨.hbm, 92, rfl⟩
abbrev main_call1_cst_0 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_call1_v5 : Ref sig .tc := ⟨.hbm, 97, rfl⟩
abbrev main_call1_v6 : Ref sig .tc := ⟨.hbm, 98, rfl⟩
abbrev main_call1_v7 : Ref sig .tc := ⟨.hbm, 99, rfl⟩
abbrev main_call1_cst_1 : Ref sig .tc := ⟨.hbm, 100, rfl⟩
abbrev main_call1_v8 : Ref sig .tc := ⟨.hbm, 101, rfl⟩
abbrev main_call1_cst_2 : Ref sig .tc := ⟨.hbm, 102, rfl⟩
abbrev main_call1_v9 : Ref sig .tc := ⟨.hbm, 103, rfl⟩
abbrev main_call1_v10 : Ref sig .tc := ⟨.hbm, 104, rfl⟩
abbrev main_call1_v11 : Ref sig .tc := ⟨.hbm, 105, rfl⟩
abbrev main_call1_cst_3 : Ref sig .tc := ⟨.hbm, 106, rfl⟩
abbrev main_call1_v12 : Ref sig .tc := ⟨.hbm, 107, rfl⟩
abbrev main_call1_cst_4 : Ref sig .tc := ⟨.hbm, 108, rfl⟩
abbrev main_call1_call0_v0 : Ref sig .tc := ⟨.hbm, 109, rfl⟩
abbrev main_call1_call0_v1 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_cst_10 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_cst_11 : Ref sig .tc := ⟨.hbm, 121, rfl⟩
abbrev main_v51 : Ref sig .tc := ⟨.hbm, 122, rfl⟩
abbrev main_cst_12 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_cst_13 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  shapeCasts_S5000x64_S5000x64 : S5000x64.ShapeCasts S5000x64
  bcast_S_S100000x64 : S_.BroadcastsInDim S100000x64 (![] : Fin 0 → Fin S100000x64.rank)
  bcast_S_S512x64 : S_.BroadcastsInDim S512x64 (![] : Fin 0 → Fin S512x64.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S512x1 : S_.BroadcastsInDim S512x1 (![] : Fin 0 → Fin S512x1.rank)
  bcast_S512x1_S512x64_0_1 : S512x1.BroadcastsInDim S512x64 (![0, 1] : Fin 2 → Fin S512x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S512x64_S100000x1_S100000x64_1_0_0_1_wf : ScatterDims.WF S512x64 S100000x1 S100000x64 [1] [0] [0] 1
  scatter_S512x1_S100000x1_S100000x1_1_0_0_1_wf : ScatterDims.WF S512x1 S100000x1 S100000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v25) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v38) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v38) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v44) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v46) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v47) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x64 : Shape := ⟨2, ![100000, 64]⟩
abbrev S1x64 : Shape := ⟨2, ![1, 64]⟩
abbrev S1600000x64 : Shape := ⟨2, ![1600000, 64]⟩
abbrev S512x64 : Shape := ⟨2, ![512, 64]⟩
abbrev S100000x1 : Shape := ⟨2, ![100000, 1]⟩
abbrev S512x1 : Shape := ⟨2, ![512, 1]⟩

abbrev nBuf : Space → Nat
  | .hbm => 178
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64, .f32⟩
  | 14 => ⟨S64, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S100000x128, .f32⟩
  | 33 => ⟨S100000x64, .f32⟩
  | 34 => ⟨S1x64, .f32⟩
  | 35 => ⟨S100000x64, .f32⟩
  | 36 => ⟨S100000x64, .f32⟩
  | 37 => ⟨S_, .f32⟩
  | 38 => ⟨S100000x64, .f32⟩
  | 39 => ⟨S100000x64, .f32⟩
  | 40 => ⟨S100000x64, .f32⟩
  | 41 => ⟨S1x64, .f32⟩
  | 42 => ⟨S100000x64, .f32⟩
  | 43 => ⟨S100000x64, .f32⟩
  | 44 => ⟨S_, .f32⟩
  | 45 => ⟨S64, .f32⟩
  | 46 => ⟨S_, .f32⟩
  | 47 => ⟨S64, .f32⟩
  | 48 => ⟨S64, .f32⟩
  | 49 => ⟨S_, .i32⟩
  | 50 => ⟨S_, .f32⟩
  | 51 => ⟨S64, .f32⟩
  | 52 => ⟨S1x64, .f32⟩
  | 53 => ⟨S_, .f32⟩
  | 54 => ⟨S1x64, .f32⟩
  | 55 => ⟨S1x64, .f32⟩
  | 56 => ⟨S100000x64, .f32⟩
  | 57 => ⟨S100000x64, .f32⟩
  | 58 => ⟨S100000x64, .f32⟩
  | 59 => ⟨S_, .f32⟩
  | 60 => ⟨S_, .f32⟩
  | 61 => ⟨S_, .f32⟩
  | 62 => ⟨S_, .f32⟩
  | 63 => ⟨S64, .f32⟩
  | 64 => ⟨S64, .f32⟩
  | 65 => ⟨S64, .f32⟩
  | 66 => ⟨S_, .f32⟩
  | 67 => ⟨S_, .i1⟩
  | 68 => ⟨S_, .f32⟩
  | 69 => ⟨S_, .f32⟩
  | 70 => ⟨S64, .f32⟩
  | 71 => ⟨S64, .f32⟩
  | 72 => ⟨S1x64, .f32⟩
  | 73 => ⟨S100000x64, .f32⟩
  | 74 => ⟨S100000x64, .f32⟩
  | 75 => ⟨S_, .f32⟩
  | 76 => ⟨S64, .f32⟩
  | 77 => ⟨S64, .f32⟩
  | 78 => ⟨S64, .f32⟩
  | 79 => ⟨S1x64, .f32⟩
  | 80 => ⟨S100000x64, .f32⟩
  | 81 => ⟨S100000x64, .f32⟩
  | 82 => ⟨S1x64, .f32⟩
  | 83 => ⟨S100000x64, .f32⟩
  | 84 => ⟨S100000x64, .f32⟩
  | 85 => ⟨S1x64, .f32⟩
  | 86 => ⟨S100000x64, .f32⟩
  | 87 => ⟨S100000x64, .f32⟩
  | 88 => ⟨S_, .f32⟩
  | 89 => ⟨S100000x64, .f32⟩
  | 90 => ⟨S100000x64, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x64, .f32⟩
  | 100 => ⟨S_, .f32⟩
  | 101 => ⟨S100000x64, .f32⟩
  | 102 => ⟨S1600000x1, .i32⟩
  | 103 => ⟨S100000x64, .f32⟩
  | 104 => ⟨S100000x64, .f32⟩
  | 105 => ⟨S100000x64, .f32⟩
  | 106 => ⟨S1x64, .f32⟩
  | 107 => ⟨S100000x64, .f32⟩
  | 108 => ⟨S100000x64, .f32⟩
  | 109 => ⟨S_, .f32⟩
  | 110 => ⟨S100000x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S64, .f32⟩
  | 118 => ⟨S_, .f32⟩
  | 119 => ⟨S64, .f32⟩
  | 120 => ⟨S64, .f32⟩
  | 121 => ⟨S_, .i32⟩
  | 122 => ⟨S_, .f32⟩
  | 123 => ⟨S64, .f32⟩
  | 124 => ⟨S1x64, .f32⟩
  | 125 => ⟨S_, .f32⟩
  | 126 => ⟨S1x64, .f32⟩
  | 127 => ⟨S1x64, .f32⟩
  | _ => ⟨S100000x128, .f32⟩

abbrev hbmTy0_1 (i : Nat) : BufTy := match i % 128 with
  | 0 => ⟨S100000x64, .f32⟩
  | 1 => ⟨S100000x64, .f32⟩
  | 2 => ⟨S100000x64, .f32⟩
  | 3 => ⟨S_, .f32⟩
  | 4 => ⟨S_, .f32⟩
  | 5 => ⟨S_, .f32⟩
  | 6 => ⟨S_, .f32⟩
  | 7 => ⟨S64, .f32⟩
  | 8 => ⟨S64, .f32⟩
  | 9 => ⟨S64, .f32⟩
  | 10 => ⟨S_, .f32⟩
  | 11 => ⟨S_, .i1⟩
  | 12 => ⟨S_, .f32⟩
  | 13 => ⟨S_, .f32⟩
  | 14 => ⟨S64, .f32⟩
  | 15 => ⟨S64, .f32⟩
  | 16 => ⟨S1x64, .f32⟩
  | 17 => ⟨S100000x64, .f32⟩
  | 18 => ⟨S100000x64, .f32⟩
  | 19 => ⟨S_, .f32⟩
  | 20 => ⟨S64, .f32⟩
  | 21 => ⟨S64, .f32⟩
  | 22 => ⟨S64, .f32⟩
  | 23 => ⟨S1x64, .f32⟩
  | 24 => ⟨S100000x64, .f32⟩
  | 25 => ⟨S100000x64, .f32⟩
  | 26 => ⟨S1x64, .f32⟩
  | 27 => ⟨S100000x64, .f32⟩
  | 28 => ⟨S100000x64, .f32⟩
  | 29 => ⟨S1x64, .f32⟩
  | 30 => ⟨S100000x64, .f32⟩
  | 31 => ⟨S100000x64, .f32⟩
  | 32 => ⟨S_, .f32⟩
  | 33 => ⟨S100000x64, .f32⟩
  | 34 => ⟨S100000x64, .f32⟩
  | 35 => ⟨S_, .f32⟩
  | 36 => ⟨S512x64, .f32⟩
  | 37 => ⟨S100000x1, .i32⟩
  | 38 => ⟨S512x64, .f32⟩
  | 39 => ⟨S_, .f32⟩
  | 40 => ⟨S100000x1, .f32⟩
  | 41 => ⟨S_, .f32⟩
  | 42 => ⟨S512x1, .f32⟩
  | 43 => ⟨S100000x1, .i32⟩
  | 44 => ⟨S512x1, .f32⟩
  | 45 => ⟨S_, .f32⟩
  | 46 => ⟨S512x1, .f32⟩
  | 47 => ⟨S512x1, .f32⟩
  | 48 => ⟨S512x64, .f32⟩
  | 49 => ⟨S512x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_cst : Ref sig .tc := ⟨.hbm, 37, rfl⟩
abbrev main_call0_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_1 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_c_3 : Ref sig .tc := ⟨.hbm, 49, rfl⟩
abbrev main_call1_cst : Ref sig .tc := ⟨.hbm, 50, rfl⟩
abbrev main_call1_v0 : Ref sig .tc := ⟨.hbm, 51, rfl⟩
abbrev main_call1_v1 : Ref sig .tc := ⟨.hbm, 52, rfl⟩
abbrev main_call1_cst_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_v6 : Ref sig .tc := ⟨.hbm, 58, rfl⟩
abbrev main_call1_v7 : Ref sig .tc := ⟨.hbm, 59, rfl⟩
abbrev main_call1_cst_1 : Ref sig .tc := ⟨.hbm, 60, rfl⟩
abbrev main_call1_v8 : Ref sig .tc := ⟨.hbm, 61, rfl⟩
abbrev main_call1_cst_2 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_cst_3 : Ref sig .tc := ⟨.hbm, 66, rfl⟩
abbrev main_call1_v12 : Ref sig .tc := ⟨.hbm, 67, rfl⟩
abbrev main_call1_cst_4 : Ref sig .tc := ⟨.hbm, 68, rfl⟩
abbrev main_call1_call0_v0 : Ref sig .tc := ⟨.hbm, 69, rfl⟩
abbrev main_call1_call0_v1 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_cst_4 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_call2_cst : Ref sig .tc := ⟨.hbm, 88, rfl⟩
abbrev main_call2_v0 : Ref sig .tc := ⟨.hbm, 89, rfl⟩
abbrev main_v43 : Ref sig .tc := ⟨.hbm, 90, rfl⟩
abbrev main_c_5 : Ref sig .tc := ⟨.hbm, 91, rfl⟩
abbrev main_v44 : Ref sig .tc := ⟨.hbm, 92, rfl⟩
abbrev main_v45 : Ref sig .tc := ⟨.hbm, 93, rfl⟩
abbrev main_c_6 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_cst_7 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_call3_cst : Ref sig .tc := ⟨.hbm, 109, rfl⟩
abbrev main_call3_v0 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_8 : Ref sig .tc := ⟨.hbm, 116, rfl⟩
abbrev main_v64 : Ref sig .tc := ⟨.hbm, 117, rfl⟩
abbrev main_cst_9 : Ref sig .tc := ⟨.hbm, 118, rfl⟩
abbrev main_v65 : Ref sig .tc := ⟨.hbm, 119, rfl⟩
abbrev main_v66 : Ref sig .tc := ⟨.hbm, 120, rfl⟩
abbrev main_c_10 : Ref sig .tc := ⟨.hbm, 121, rfl⟩
abbrev main_call4_cst : Ref sig .tc := ⟨.hbm, 122, rfl⟩
abbrev main_call4_v0 : Ref sig .tc := ⟨.hbm, 123, rfl⟩
abbrev main_call4_v1 : Ref sig .tc := ⟨.hbm, 124, rfl⟩
abbrev main_call4_cst_0 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_call4_v5 : Ref sig .tc := ⟨.hbm, 129, rfl⟩
abbrev main_call4_v6 : Ref sig .tc := ⟨.hbm, 130, rfl⟩
abbrev main_call4_v7 : Ref sig .tc := ⟨.hbm, 131, rfl⟩
abbrev main_call4_cst_1 : Ref sig .tc := ⟨.hbm, 132, rfl⟩
abbrev main_call4_v8 : Ref sig .tc := ⟨.hbm, 133, rfl⟩
abbrev main_call4_cst_2 : Ref sig .tc := ⟨.hbm, 134, rfl⟩
abbrev main_call4_v9 : Ref sig .tc := ⟨.hbm, 135, rfl⟩
abbrev main_call4_v10 : Ref sig .tc := ⟨.hbm, 136, rfl⟩
abbrev main_call4_v11 : Ref sig .tc := ⟨.hbm, 137, rfl⟩
abbrev main_call4_cst_3 : Ref sig .tc := ⟨.hbm, 138, rfl⟩
abbrev main_call4_v12 : Ref sig .tc := ⟨.hbm, 139, rfl⟩
abbrev main_call4_cst_4 : Ref sig .tc := ⟨.hbm, 140, rfl⟩
abbrev main_call4_call0_v0 : Ref sig .tc := ⟨.hbm, 141, rfl⟩
abbrev main_call4_call0_v1 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_cst_11 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_call5_cst : Ref sig .tc := ⟨.hbm, 160, rfl⟩
abbrev main_call5_v0 : Ref sig .tc := ⟨.hbm, 161, rfl⟩
abbrev main_v83 : Ref sig .tc := ⟨.hbm, 162, rfl⟩
abbrev main_cst_12 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_cst_13 : Ref sig .tc := ⟨.hbm, 167, rfl⟩
abbrev main_v87 : Ref sig .tc := ⟨.hbm, 168, rfl⟩
abbrev main_cst_14 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_cst_15 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S512x64 : S_.BroadcastsInDim S512x64 (![] : Fin 0 → Fin S512x64.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S512x1 : S_.BroadcastsInDim S512x1 (![] : Fin 0 → Fin S512x1.rank)
  bcast_S512x1_S512x64_0_1 : S512x1.BroadcastsInDim S512x64 (![0, 1] : Fin 2 → Fin S512x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S512x64_S100000x1_S100000x64_1_0_0_1_wf : ScatterDims.WF S512x64 S100000x1 S100000x64 [1] [0] [0] 1
  scatter_S512x1_S100000x1_S100000x1_1_0_0_1_wf : ScatterDims.WF S512x1 S100000x1 S100000x1 [1] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf

class Facts : Prop extends Facts₀ where

variable [Facts]
-- ==== Proof.KernelRun.lean ====
/-
  The kernel program's run through its four pipelined regions and the host stretches between them ends with
  every unscoped buffer at the last boundary's contents. Here that is read at the result buffer and at the
  fifteen arguments, the arguments as launched.
-/
import proofs.«113887_j35519379538034_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- At the compiled mesh, from any memory with zero counters, every weakly fair execution of @main on the
    TensorCores terminates, and every final state has the result buffer at the last boundary's contents and
    each argument array as launched. -/
theorem run : θ_run defs (onTc (τ := τ) (main (F := F))) ⟨m, fun _ => 0, ρ⟩ (fun r => ∀ c : Dev nD,
      r.2.mem ((c.tc : Thread nD τ).loc main_v58) = W13 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v58 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c)⟩)

end Cert.KernelIdeal.ValueRun

end
-- ==== Proof.LibDotPlain.lean ====
/-
  The dimension numbers of a plain matrix product — the left operand contracted on its last axis, the right on its
  first, no batch axes — read at an index. At result position (i, q) and contraction position k the left operand is
  read at (i, k) and the right at (k, q); the contraction shape has one axis of the shared extent, so the sum over it
  is the ordinary sum over k of l(i, k) · r(k, q). Both a tiled matrix unit product into a zero accumulator and a host
  dot product then read, at the ideal instance, as that sum, whatever the extents.
-/
import Idealize.ShloMosaic.PureOps.Ideal.Laws
import Idealize.ShloMosaic.Lib.ValueIdx

noncomputable section

open scoped BigOperators

namespace Idealize.ShloMosaic.DotPlain

open Idealize.ShloMosaic Idealize.ShloMosaic.ValueIdx

variable {M K N : Nat} (d : DotDims ⟨2, ![M, K]⟩ ⟨2, ![K, N]⟩ ⟨2, ![M, N]⟩)

/-- The dimension numbers are those of a plain product: [1] × [0] contracted, [0] and [1] kept, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

theorem rank_one (h : IsPlain d) : d.contr.rank = 1 := by rw [d.rank_contr, h.lc]; rfl

theorem size_zero (h : IsPlain d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsPlain d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsPlain d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsPlain d) (j : (⟨2, ![M, N]⟩ : Shape).Idx) (k : d.contr.Idx) :
    (d.lhsIdx j k 1).val = (pos h k).val := by
  rw [d.lhsIdx_val_of_single h.lc j k]; rfl

theorem rhsIdx_row (h : IsPlain d) (j : (⟨2, ![M, N]⟩ : Shape).Idx) (k : d.contr.Idx) :
    (d.rhsIdx j k 0).val = (pos h k).val := by
  rw [d.rhsIdx_val_of_single h.rc j k]; rfl

theorem rhsIdx_col (h : IsPlain d) (j : (⟨2, ![M, N]⟩ : Shape).Idx) (k : d.contr.Idx) :
    (d.rhsIdx j k 1).val = (j 1).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem lhsIdx_eq (h : IsPlain d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsPlain d) (j : (⟨2, ![M, N]⟩ : Shape).Idx) (k : d.contr.Idx) :
    d.rhsIdx j k = ix2 (pos h k) (j 1) := by
  funext a; apply Fin.ext
  match a with
  | ⟨0, _⟩ => exact rhsIdx_row h j k
  | ⟨1, _⟩ => exact rhsIdx_col h j k

/-- THE CONTRACTION SUM of a plain product is the sum over k below the shared extent of l(i, k) · r(k, q). -/
theorem sum_eq (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (pos h) (fun k : Fin K => l (ix2 (j 0) k) * r (ix2 k (j 1)))]
  exact Finset.sum_congr rfl fun k _ => by rw [lhsIdx_eq h j k, rhsIdx_eq h j k]; rfl

/-- A matrix unit product into a zero accumulator, at the ideal instance and at an index. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = ∑ k : Fin K, l (ix2 (j 0) k) * r (ix2 k (j 1)) :=
  (Ideal.matmul_constant_zero_apply d prec l r j).trans (sum_eq h l r j)

/-- A host dot product, at the ideal instance and at an index. -/
theorem dotGeneral_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    Host.dotGeneral d prec l r j = ∑ k : Fin K, l (ix2 (j 0) k) * r (ix2 k (j 1)) := by
  unfold Host.dotGeneral
  exact (Ideal.dotGeneral_apply d prec _ l r j).trans (sum_eq h l r j)

end Idealize.ShloMosaic.DotPlain

end
-- ==== Proof.Spec.lean ====
/-
  The two dense stages of a graph-isomorphism layer as functions of whole arrays, index by index, over the extended
  reals. `affine x W b` is the row-by-matrix product plus a bias row, (x·W)(i, q) + b(0, q) with the product the plain sum
  over k of x(i, k)·W(k, q); `relu` is the maximum with the float zero; `mlp` is the two-layer perceptron applied to a
  node's features plus its aggregated neighbours, affine ∘ relu ∘ affine of (x + agg); `bnrelu` is the batch normalisation
  of a column by a given mean and variance row, (y − mean)·rsqrt(var + ε)·γ + β, followed by relu. Each is stated for any
  extents, and each vector-unit or host spelling of the stage is shown to be that function.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«113887_j35519379538034_1_alg».proof.Proof.LibDotPlain

noncomputable section

open scoped BigOperators

namespace Cert.GinSpec

open Idealize.ShloMosaic Idealize.ShloMosaic.ValueIdx

/-- A two-axis array of extended reals. -/
abbrev Mat (a b : Nat) : Type := (⟨2, ![a, b]⟩ : Shape).Idx → EReal

variable {M K H N : Nat}

/-- x·W + b, the bias a row. -/
def affine (x : Mat M K) (W : Mat K N) (b : Mat 1 N) : Mat M N :=
  fun j => (∑ k : Fin K, x (ix2 (n0 := M) (n1 := K) (j 0) k) * W (ix2 (n0 := K) (n1 := N) k (j 1))) + b (ix2 (n0 := 1) (n1 := N) 0 (j 1))

/-- The float zero's word, read at the ideal instance. -/
abbrev zeroF : EReal := Ideal.ofBits .f32 0x00000000#32
/-- The batch normalisation's ε as the program spells it. -/
abbrev epsF : EReal := Ideal.ofBits .f32 0x3727C5AC#32

/-- max(y, 0), entry by entry. -/
def relu (y : Mat M N) : Mat M N := fun j => max (y j) zeroF

/-- The perceptron of a node's own features plus its neighbours' sum. -/
def mlp (x agg : Mat M K) (W1 : Mat K H) (b1 : Mat 1 H) (W2 : Mat H N) (b2 : Mat 1 N) : Mat M N :=
  affine (relu (affine (fun i => x i + agg i) W1 b1)) W2 b2

/-- Normalise each column by its given mean and variance, scale, shift, and clip at zero. -/
def bnrelu (y : Mat M N) (mean var gamma beta : Mat 1 N) : Mat M N := fun j =>
  max ((y j - mean (ix2 (n0 := 1) (n1 := N) 0 (j 1))) * Ideal.rsqrt (var (ix2 (n0 := 1) (n1 := N) 0 (j 1)) + epsF)
        * gamma (ix2 (n0 := 1) (n1 := N) 0 (j 1)) + beta (ix2 (n0 := 1) (n1 := N) 0 (j 1))) zeroF

end Cert.GinSpec

end
-- ==== Proof.SpecForms.lean ====
/-
  The vector-unit and host spellings of the dense stages are the stage functions: a matrix-unit product into a zero
  accumulator plus a broadcast bias row is `affine`; the same with a host dot product; a maximum with a splat zero is
  `relu`; and a row read through a two-step host broadcast ([n] → [1, n] → [m, n]) is the row.
-/
import proofs.«113887_j35519379538034_1_alg».proof.Proof.Spec

noncomputable section

open scoped BigOperators

namespace Cert.GinSpec

open Idealize.ShloMosaic Idealize.ShloMosaic.ValueIdx

variable {M K N : Nat}

/-- A matrix-unit product into zeros, plus a bias row broadcast down the rows, is `affine`. -/
theorem affine_of_matmul (d : DotDims ⟨2, ![M, K]⟩ ⟨2, ![K, N]⟩ ⟨2, ![M, N]⟩) (hd : DotPlain.IsPlain d)
    (prec : Option ContractPrecision) {φ₁ φ₂ : FTy}
    (x : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) :
    addf (matmul d prec x w (constant (F := Ideal) ⟨2, ![M, N]⟩ .f32 0x00000000#32)) (broadcastTo ⟨2, ![M, N]⟩ b hb)
      = affine x w b := by
  funext j
  obtain ⟨p, q, rfl⟩ : ∃ (p : Fin M) (q : Fin N), j = ix2 p q := ⟨j 0, j 1, eq_ix2 j⟩
  show matmul d prec x w (constant (F := Ideal) ⟨2, ![M, N]⟩ .f32 0x00000000#32) (ix2 p q) + broadcastTo ⟨2, ![M, N]⟩ b hb (ix2 p q) = _
  rw [DotPlain.matmul_zero_apply hd, broadcastTo_1b_ab_apply]
  rfl

/-- A maximum with the splat float zero is `relu`. -/
theorem relu_of_maximumf (y : FVec Ideal ⟨2, ![M, N]⟩ .f32) :
    maximumf y (broadcast ⟨2, ![M, N]⟩ (FloatOps.ofBits (F := Ideal) .f32 0x00000000#32)) = relu y := rfl

variable {M' H : Nat}

/-- ROWS ARE INDEPENDENT: the perceptron of a block of rows is the block of the perceptron. If `x'` and `agg'` hold the
    rows `r p` of `x` and `agg`, then row `p` of `mlp x' agg' …` is row `r p` of `mlp x agg …`. -/
theorem mlp_rows (r : Fin M' → Fin M) (x agg : Mat M K) (x' agg' : Mat M' K)
    (hx : ∀ p k, x' (ix2 p k) = x (ix2 (r p) k)) (ha : ∀ p k, agg' (ix2 p k) = agg (ix2 (r p) k))
    (W1 : Mat K H) (b1 : Mat 1 H) (W2 : Mat H N) (b2 : Mat 1 N) (p : Fin M') (q : Fin N) :
    mlp x' agg' W1 b1 W2 b2 (ix2 p q) = mlp x agg W1 b1 W2 b2 (ix2 (r p) q) := by
  unfold mlp affine relu
  show (∑ k : Fin H, max ((∑ k' : Fin K, (x' (ix2 p k') + agg' (ix2 p k')) * W1 (ix2 k' k)) + b1 (ix2 0 k)) zeroF * W2 (ix2 k q)) + b2 (ix2 0 q)
     = (∑ k : Fin H, max ((∑ k' : Fin K, (x (ix2 (r p) k') + agg (ix2 (r p) k')) * W1 (ix2 k' k)) + b1 (ix2 0 k)) zeroF * W2 (ix2 k q)) + b2 (ix2 0 q)
  simp only [hx, ha]

/-- The normalisation of a block of rows is the block of the normalisation. -/
theorem bnrelu_rows (r : Fin M' → Fin M) (y : Mat M N) (y' : Mat M' N) (hy : ∀ p q, y' (ix2 p q) = y (ix2 (r p) q))
    (mean var gamma beta : Mat 1 N) (p : Fin M') (q : Fin N) :
    bnrelu y' mean var gamma beta (ix2 p q) = bnrelu y mean var gamma beta (ix2 (r p) q) := by
  unfold bnrelu
  show max ((y' (ix2 p q) - mean (ix2 0 q)) * Ideal.rsqrt (var (ix2 0 q) + epsF) * gamma (ix2 0 q) + beta (ix2 0 q)) zeroF
     = max ((y (ix2 (r p) q) - mean (ix2 0 q)) * Ideal.rsqrt (var (ix2 0 q) + epsF) * gamma (ix2 0 q) + beta (ix2 0 q)) zeroF
  rw [hy]

end Cert.GinSpec

end
-- ==== Proof.KernelPayloads.lean ====
/-
  What each of the four kernel bodies computes from its loaded blocks, at the ideal instance: the two perceptron bodies
  are `mlp` of their blocks (a bf16 rounding on the way into the matrix unit is the identity on extended reals), the two
  normalisation bodies are `bnrelu` of theirs.
-/
import proofs.«113887_j35519379538034_1_alg».proof.Proof.Gen.KernelIdeal.Skeleton
import proofs.«113887_j35519379538034_1_alg».proof.Proof.SpecForms

noncomputable section

namespace Cert.KernelIdeal.Payloads

open Cert.KernelIdeal Cert.KernelIdeal.Gen Idealize.ShloMosaic Idealize.ShloMosaic.ValueIdx Cert.GinSpec

/-- The first perceptron body: 128 input features, 64 hidden, 64 out. -/
theorem mlp_first (x agg : Vec Ideal S5000x128 .f32) (w1 : Vec Ideal S128x64 .f32) (b1 : Vec Ideal S1x64 .f32)
    (w2 : Vec Ideal S64x64 .f32) (b2 : Vec Ideal S1x64 .f32) :
    k0_pay1 (F := Ideal) x agg w1 b1 w2 b2 = mlp x agg w1 b1 w2 b2 := by
  unfold k0_pay1
  simp only [shapeCast_self]
  refine (affine_of_matmul dot_S5000x64_S64x64_S5000x64_1_0_0_1_n_n ⟨rfl, rfl, rfl, rfl, rfl, rfl⟩ none _ _ b2 _).trans ?_
  unfold mlp
  refine congrArg (fun y => affine (relu y) w2 b2) ?_
  exact affine_of_matmul dot_S5000x128_S128x64_S5000x64_1_0_0_1_n_n ⟨rfl, rfl, rfl, rfl, rfl, rfl⟩ none _ _ b1 _

/-- The second perceptron body: 64 features throughout. -/
theorem mlp_second (x agg : Vec Ideal S5000x64 .f32) (w1 : Vec Ideal S64x64 .f32) (b1 : Vec Ideal S1x64 .f32)
    (w2 : Vec Ideal S64x64 .f32) (b2 : Vec Ideal S1x64 .f32) :
    k2_pay1 (F := Ideal) x agg w1 b1 w2 b2 = mlp x agg w1 b1 w2 b2 := by
  unfold k2_pay1
  simp only [shapeCast_self]
  refine (affine_of_matmul dot_S5000x64_S64x64_S5000x64_1_0_0_1_n_n ⟨rfl, rfl, rfl, rfl, rfl, rfl⟩ none _ _ b2 _).trans ?_
  unfold mlp
  refine congrArg (fun y => affine (relu y) w2 b2) ?_
  exact affine_of_matmul dot_S5000x64_S64x64_S5000x64_1_0_0_1_n_n ⟨rfl, rfl, rfl, rfl, rfl, rfl⟩ none _ _ b1 _

/-- The first normalisation body (it loads the variance row before the mean row). -/
theorem bn_first (y : Vec Ideal S5000x64 .f32) (var mean gamma beta : Vec Ideal S1x64 .f32) :
    k1_pay1 (F := Ideal) y var mean gamma beta = bnrelu y mean var gamma beta := by
  unfold k1_pay1
  simp only [shapeCast_self]
  funext j
  obtain ⟨p, q, rfl⟩ : ∃ (p : Fin 5000) (q : Fin 64), j = ix2 p q := ⟨j 0, j 1, eq_ix2 j⟩
  show max ((y (ix2 p q) - broadcastTo S5000x64 mean broadcasts_S1x64_S5000x64 (ix2 p q))
      * broadcastTo S5000x64 (rsqrt (addf var (broadcast S1x64 (FloatOps.ofBits (F := Ideal) .f32 0x3727C5AC#32)))) broadcasts_S1x64_S5000x64 (ix2 p q)
      * broadcastTo S5000x64 gamma broadcasts_S1x64_S5000x64 (ix2 p q)
      + broadcastTo S5000x64 beta broadcasts_S1x64_S5000x64 (ix2 p q)) zeroF = _
  simp only [broadcastTo_1b_ab_apply]
  rfl

/-- The second normalisation body. -/
theorem bn_second (y : Vec Ideal S5000x64 .f32) (var mean gamma beta : Vec Ideal S1x64 .f32) :
    k3_pay1 (F := Ideal) y var mean gamma beta = bnrelu y mean var gamma beta := by
  unfold k3_pay1
  simp only [shapeCast_self]
  funext j
  obtain ⟨p, q, rfl⟩ : ∃ (p : Fin 5000) (q : Fin 64), j = ix2 p q := ⟨j 0, j 1, eq_ix2 j⟩
  show max ((y (ix2 p q) - broadcastTo S5000x64 mean broadcasts_S1x64_S5000x64 (ix2 p q))
      * broadcastTo S5000x64 (rsqrt (addf var (broadcast S1x64 (FloatOps.ofBits (F := Ideal) .f32 0x3727C5AC#32)))) broadcasts_S1x64_S5000x64 (ix2 p q)
      * broadcastTo S5000x64 gamma broadcasts_S1x64_S5000x64 (ix2 p q)
      + broadcastTo S5000x64 beta broadcasts_S1x64_S5000x64 (ix2 p q)) zeroF = _
  simp only [broadcastTo_1b_ab_apply]
  rfl

end Cert.KernelIdeal.Payloads

end
-- ==== Proof.RegionMlp1.lean ====
/-
  The first perceptron region, read as a value. The grid has twenty points; point t stages rows 5000·t … 5000·t + 4999 of
  the node features and of the aggregated neighbours, the weights and bias rows whole, and writes back the same rows of the
  result. A row of the perceptron depends on that row of its two row-indexed operands only, so what point t writes back is
  block t of `mlp` of the whole arrays; the twenty blocks tile the 100000 rows, so the array the region leaves is `mlp` of
  the arrays it was entered with.
-/
import proofs.«113887_j35519379538034_1_alg».proof.Proof.Gen.KernelIdeal.Frame
import proofs.«113887_j35519379538034_1_alg».proof.Proof.KernelPayloads
import Idealize.ShloMosaic.Lib.Pipeline.Value

noncomputable section

namespace Cert.KernelIdeal.RegionMlp1

open Cert.KernelIdeal Cert.KernelIdeal.Gen Idealize.ShloMosaic Idealize.ShloMosaic.TcCoe Idealize.SL.Sem
open Idealize.ShloMosaic.ValueIdx Cert.GinSpec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-indexed inputs and the output sit at block (t, 0), the weights and
    bias rows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block is row 5000·t + p of the array. -/
def row (t : Fin cfg0.N) (p : Fin 5000) : Fin 100000 :=
  ⟨t.val * 5000 + p.val, by have h : t.val < 20 := t.isLt; have := p.isLt; omega⟩

theorem blk_x (c : Dev nD) (t : Fin cfg0.N) (p : Fin 5000) (k : Fin 128) :
    iblk0 V c 0 t (ix2 p k) = V c main_arg0 (ix2 (row t p) k) := by
  obtain ⟨e0, e1, -⟩ := idx_facts t
  show V c main_arg0 (((cfg0.win 0).blk t).view.emb (ix2 p k)) = V c main_arg0 (ix2 (row t p) k)
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

theorem blk_agg (c : Dev nD) (t : Fin cfg0.N) (p : Fin 5000) (k : Fin 128) :
    iblk0 V c 1 t (ix2 p k) = V c main_v13 (ix2 (row t p) k) := by
  obtain ⟨-, -, e0, e1, -⟩ := idx_facts t
  show V c main_v13 (((cfg0.win 1).blk t).view.emb (ix2 p k)) = V c main_v13 (ix2 (row t p) k)
  refine congrArg (V c main_v13) (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

theorem blk_w1 (c : Dev nD) (t : Fin cfg0.N) : iblk0 V c 2 t = V c main_arg3 := by
  obtain ⟨-, -, -, -, e0, e1, -⟩ := idx_facts t
  funext y
  show V c main_arg3 (((cfg0.win 2).blk t).view.emb y) = V c main_arg3 y
  refine congrArg (V c main_arg3) (funext fun a => Fin.ext ?_)
  match a with
  | ⟨0, _⟩ => show win0_2.index t (0 : Fin 2) * 128 + 1 * (y 0).val = (y 0).val; omega
  | ⟨1, _⟩ => show win0_2.index t (1 : Fin 2) * 64 + 1 * (y 1).val = (y 1).val; omega

theorem blk_b1 (c : Dev nD) (t : Fin cfg0.N) : iblk0 V c 3 t = V c main_v14 := by
  obtain ⟨-, -, -, -, -, -, e0, e1, -⟩ := idx_facts t
  funext y
  show V c main_v14 (((cfg0.win 3).blk t).view.emb y) = V c main_v14 y
  refine congrArg (V c main_v14) (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

theorem blk_w2 (c : Dev nD) (t : Fin cfg0.N) : iblk0 V c 4 t = V c main_arg5 := by
  obtain ⟨-, -, -, -, -, -, -, -, e0, e1, -⟩ := idx_facts t
  funext y
  show V c main_arg5 (((cfg0.win 4).blk t).view.emb y) = V c main_arg5 y
  refine congrArg (V c main_arg5) (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

theorem blk_b2 (c : Dev nD) (t : Fin cfg0.N) : iblk0 V c 5 t = V c main_v15 := by
  obtain ⟨-, -, -, -, -, -, -, -, -, -, e0, e1, -⟩ := idx_facts t
  funext y
  show V c main_v15 (((cfg0.win 5).blk t).view.emb y) = V c main_v15 y
  refine congrArg (V c main_v15) (funext fun a => Fin.ext ?_)
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- The array the region leaves, as a function of the arrays it is entered with. -/
abbrev result (c : Dev nD) : Mat 100000 64 :=
  mlp (V c main_arg0) (V c main_v13) (V c main_arg3) (V c main_v14) (V c main_arg5) (V c main_v15)

/-- WHAT POINT `t` WRITES BACK is block `t` of `result`. -/
theorem flushed_eq (c : Dev nD) (t : Fin cfg0.N) :
    (dat0 V c).flushed 6 t = ((cfg0.win 6).blk t).view.read (Elt Ideal) (result V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x64) hz, View.ld_unit_zero (S := S1x64) hz,
    View.ld_unit_zero (S := S64x64) hz]
  rw [Payloads.mlp_first, blk_w1, blk_b1, blk_w2, blk_b2]
  obtain ⟨-, -, -, -, -, -, -, -, -, -, -, -, e0, e1⟩ := idx_facts t
  funext j
  obtain ⟨p, q, rfl⟩ : ∃ (p : Fin 5000) (q : Fin 64), j = ix2 p q := ⟨j 0, j 1, eq_ix2 j⟩
  show mlp (iblk0 V c 0 t) (iblk0 V c 1 t) (V c main_arg3) (V c main_v14) (V c main_arg5) (V c main_v15) (ix2 p q)
    = result V c (((cfg0.win 6).blk t).view.emb (ix2 p q))
  have hemb : ((cfg0.win 6).blk t).view.emb (ix2 p q) = ix2 (row t p) q := by
    funext a; apply Fin.ext
    match a with
    | ⟨0, _⟩ => show win0_6.index t (0 : Fin 2) * 5000 + 1 * p.val = t.val * 5000 + p.val; omega
    | ⟨1, _⟩ => show win0_6.index t (1 : Fin 2) * 64 + 1 * q.val = q.val; omega
  rw [hemb]
  exact mlp_rows (row t) _ _ _ _ (blk_x V c t) (blk_agg V c t) _ _ _ _ p q

/-- An index of the array is in point `t`'s block iff each coordinate is in the block's range on its axis. -/
theorem mem_blk (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v16).slice (win0_6.rect t)).set ↔ _
  rw [View.set_slice_whole, Rect.mem_set_unit]
  exact Iff.rfl

/-- Every row is in the block of the point 5000 divides it to. -/
theorem cover (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  let t : Fin cfg0.N := ⟨(i 0).val / 5000, by show (i 0).val / 5000 < 20; omega⟩
  obtain ⟨-, -, -, -, -, -, -, -, -, -, -, -, e0, e1⟩ := idx_facts t
  have ht : t.val = (i 0).val / 5000 := rfl
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- THE ARRAY the region leaves at its output window: the perceptron of the arrays it was entered with. -/
theorem final (c : Dev nD) : (dat0 V c).arrAt 6 cfg0.N = result V c :=
  (dat0 V c).arrAt_eq_of_cover 6 (result V c) (fun t _ => flushed_eq V c t) cover

end Cert.KernelIdeal.RegionMlp1

end
-- ==== Proof.RegionBn1.lean ====
/-
  The first normalisation region, read as a value. Point t of the twenty stages rows 5000·t … 5000·t + 4999 of the array to
  normalise and the mean, variance, scale and shift rows whole, and writes back the same rows of the result. A row of
  the normalised array depends on that row of the input only, so point t writes back block t of `bnrelu` of the whole
  arrays, and the twenty blocks tile the 100000 rows.
-/
import proofs.«113887_j35519379538034_1_alg».proof.Proof.Gen.KernelIdeal.Frame
import proofs.«113887_j35519379538034_1_alg».proof.Proof.KernelPayloads
import Idealize.ShloMosaic.Lib.Pipeline.Value

noncomputable section

namespace Cert.KernelIdeal.RegionBn1

open Cert.KernelIdeal Cert.KernelIdeal.Gen Idealize.ShloMosaic Idealize.ShloMosaic.TcCoe Idealize.SL.Sem
open Idealize.ShloMosaic.ValueIdx Cert.GinSpec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input and the output sit at block (t, 0), the four rows at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of point `t`'s block is row 5000·t + p of the array. -/
def row (t : Fin cfg1.N) (p : Fin 5000) : Fin 100000 :=
  ⟨t.val * 5000 + p.val, by have h : t.val < 20 := t.isLt; have := p.isLt; omega⟩

theorem blk_y (c : Dev nD) (t : Fin cfg1.N) (p : Fin 5000) (q : Fin 64) :
    iblk1 V c 0 t (ix2 p q) = V c main_v16 (ix2 (row t p) q) := by
  obtain ⟨e0, e1, -⟩ := idx_facts t
  show V c main_v16 (((cfg1.win 0).blk t).view.emb (ix2 p q)) = V c main_v16 (ix2 (row t p) q)
  refine congrArg (V c main_v16) (funext fun a => Fin.ext ?_)
  match a with
  | ⟨0, _⟩ => show win1_0.index t (0 : Fin 2) * 5000 + 1 * p.val = t.val * 5000 + p.val; omega
  | ⟨1, _⟩ => show win1_0.index t (1 : Fin 2) * 64 + 1 * q.val = q.val; omega

theorem blk_mean (c : Dev nD) (t : Fin cfg1.N) : iblk1 V c 1 t = V c main_v21 := by
  obtain ⟨-, -, e0, e1, -⟩ := idx_facts t
  funext y
  show V c main_v21 (((cfg1.win 1).blk t).view.emb y) = V c main_v21 y
  refine congrArg (V c main_v21) (funext fun a => Fin.ext ?_)
  match a with
  | ⟨0, _⟩ => show win1_1.index t (0 : Fin 2) * 1 + 1 * (y 0).val = (y 0).val; omega
  | ⟨1, _⟩ => show win1_1.index t (1 : Fin 2) * 64 + 1 * (y 1).val = (y 1).val; omega

theorem blk_var (c : Dev nD) (t : Fin cfg1.N) : iblk1 V c 2 t = V c main_v22 := by
  obtain ⟨-, -, -, -, e0, e1, -⟩ := idx_facts t
  funext y
  show V c main_v22 (((cfg1.win 2).blk t).view.emb y) = V c main_v22 y
  refine congrArg (V c main_v22) (funext fun a => Fin.ext ?_)
  match a with
  | ⟨0, _⟩ => show win1_2.index t (0 : Fin 2) * 1 + 1 * (y 0).val = (y 0).val; omega
  | ⟨1, _⟩ => show win1_2.index t (1 : Fin 2) * 64 + 1 * (y 1).val = (y 1).val; omega

theorem blk_gamma (c : Dev nD) (t : Fin cfg1.N) : iblk1 V c 3 t = V c main_v23 := by
  obtain ⟨-, -, -, -, -, -, e0, e1, -⟩ := idx_facts t
  funext y
  show V c main_v23 (((cfg1.win 3).blk t).view.emb y) = V c main_v23 y
  refine congrArg (V c main_v23) (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

theorem blk_beta (c : Dev nD) (t : Fin cfg1.N) : iblk1 V c 4 t = V c main_v24 := by
  obtain ⟨-, -, -, -, -, -, -, -, e0, e1, -⟩ := idx_facts t
  funext y
  show V c main_v24 (((cfg1.win 4).blk t).view.emb y) = V c main_v24 y
  refine congrArg (V c main_v24) (funext fun a => Fin.ext ?_)
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- The array the region leaves, as a function of the arrays it is entered with. -/
abbrev result (c : Dev nD) : Mat 100000 64 :=
  bnrelu (V c main_v16) (V c main_v21) (V c main_v22) (V c main_v23) (V c main_v24)

/-- WHAT POINT `t` WRITES BACK is block `t` of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S1x64) hz]
  rw [Payloads.bn_first, blk_mean, blk_var, blk_gamma, blk_beta]
  obtain ⟨-, -, -, -, -, -, -, -, -, -, e0, e1⟩ := idx_facts t
  funext j
  obtain ⟨p, q, rfl⟩ : ∃ (p : Fin 5000) (q : Fin 64), j = ix2 p q := ⟨j 0, j 1, eq_ix2 j⟩
  show bnrelu (iblk1 V c 0 t) (V c main_v21) (V c main_v22) (V c main_v23) (V c main_v24) (ix2 p q)
    = result V c (((cfg1.win 5).blk t).view.emb (ix2 p q))
  have hemb : ((cfg1.win 5).blk t).view.emb (ix2 p q) = ix2 (row t p) q := by
    funext a; apply Fin.ext
    match a with
    | ⟨0, _⟩ => show win1_5.index t (0 : Fin 2) * 5000 + 1 * p.val = t.val * 5000 + p.val; omega
    | ⟨1, _⟩ => show win1_5.index t (1 : Fin 2) * 64 + 1 * q.val = q.val; omega
  rw [hemb]
  exact bnrelu_rows (row t) _ _ (blk_y V c t) _ _ _ _ p q

/-- An index of the array is in point `t`'s block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v25).slice (win1_5.rect t)).set ↔ _
  rw [View.set_slice_whole, Rect.mem_set_unit]
  exact Iff.rfl

/-- Every row is in the block of the point 5000 divides it to. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  let t : Fin cfg1.N := ⟨(i 0).val / 5000, by show (i 0).val / 5000 < 20; omega⟩
  obtain ⟨-, -, -, -, -, -, -, -, -, -, e0, e1⟩ := idx_facts t
  have ht : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- THE ARRAY the region leaves at its output window: the normalisation of the arrays it was entered with. -/
theorem final (c : Dev nD) : (dat1 V c).arrAt 5 cfg1.N = result V c :=
  (dat1 V c).arrAt_eq_of_cover 5 (result V c) (fun t _ => flushed_eq V c t) cover

end Cert.KernelIdeal.RegionBn1

end
-- ==== Proof.RegionMlp2.lean ====
/-
  The second perceptron region, read as a value. The grid has twenty points; point t stages rows 5000·t … 5000·t + 4999 of
  the node features and of the aggregated neighbours, the weights and bias rows whole, and writes back the same rows of the
  result. A row of the perceptron depends on that row of its two row-indexed operands only, so what point t writes back is
  block t of `mlp` of the whole arrays; the twenty blocks tile the 100000 rows, so the array the region leaves is `mlp` of
  the arrays it was entered with.
-/
import proofs.«113887_j35519379538034_1_alg».proof.Proof.Gen.KernelIdeal.Frame
import proofs.«113887_j35519379538034_1_alg».proof.Proof.KernelPayloads
import Idealize.ShloMosaic.Lib.Pipeline.Value

noncomputable section

namespace Cert.KernelIdeal.RegionMlp2

open Cert.KernelIdeal Cert.KernelIdeal.Gen Idealize.ShloMosaic Idealize.ShloMosaic.TcCoe Idealize.SL.Sem
open Idealize.ShloMosaic.ValueIdx Cert.GinSpec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-indexed inputs and the output sit at block (t, 0), the weights and
    bias rows at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row `p` of point `t`'s block is row 5000·t + p of the array. -/
def row (t : Fin cfg2.N) (p : Fin 5000) : Fin 100000 :=
  ⟨t.val * 5000 + p.val, by have h : t.val < 20 := t.isLt; have := p.isLt; omega⟩

theorem blk_x (c : Dev nD) (t : Fin cfg2.N) (p : Fin 5000) (k : Fin 64) :
    iblk2 V c 0 t (ix2 p k) = V c main_v25 (ix2 (row t p) k) := by
  obtain ⟨e0, e1, -⟩ := idx_facts t
  show V c main_v25 (((cfg2.win 0).blk t).view.emb (ix2 p k)) = V c main_v25 (ix2 (row t p) k)
  refine congrArg (V c main_v25) (funext fun a => Fin.ext ?_)
  match a with
  | ⟨0, _⟩ => show win2_0.index t (0 : Fin 2) * 5000 + 1 * p.val = t.val * 5000 + p.val; omega
  | ⟨1, _⟩ => show win2_0.index t (1 : Fin 2) * 64 + 1 * k.val = k.val; omega

theorem blk_agg (c : Dev nD) (t : Fin cfg2.N) (p : Fin 5000) (k : Fin 64) :
    iblk2 V c 1 t (ix2 p k) = V c main_v35 (ix2 (row t p) k) := by
  obtain ⟨-, -, e0, e1, -⟩ := idx_facts t
  show V c main_v35 (((cfg2.win 1).blk t).view.emb (ix2 p k)) = V c main_v35 (ix2 (row t p) k)
  refine congrArg (V c main_v35) (funext fun a => Fin.ext ?_)
  match a with
  | ⟨0, _⟩ => show win2_1.index t (0 : Fin 2) * 5000 + 1 * p.val = t.val * 5000 + p.val; omega
  | ⟨1, _⟩ => show win2_1.index t (1 : Fin 2) * 64 + 1 * k.val = k.val; omega

theorem blk_w1 (c : Dev nD) (t : Fin cfg2.N) : iblk2 V c 2 t = V c main_arg9 := by
  obtain ⟨-, -, -, -, e0, e1, -⟩ := idx_facts t
  funext y
  show V c main_arg9 (((cfg2.win 2).blk t).view.emb y) = V c main_arg9 y
  refine congrArg (V c main_arg9) (funext fun a => Fin.ext ?_)
  match a with
  | ⟨0, _⟩ => show win2_2.index t (0 : Fin 2) * 64 + 1 * (y 0).val = (y 0).val; omega
  | ⟨1, _⟩ => show win2_2.index t (1 : Fin 2) * 64 + 1 * (y 1).val = (y 1).val; omega

theorem blk_b1 (c : Dev nD) (t : Fin cfg2.N) : iblk2 V c 3 t = V c main_v36 := by
  obtain ⟨-, -, -, -, -, -, e0, e1, -⟩ := idx_facts t
  funext y
  show V c main_v36 (((cfg2.win 3).blk t).view.emb y) = V c main_v36 y
  refine congrArg (V c main_v36) (funext fun a => Fin.ext ?_)
  match a with
  | ⟨0, _⟩ => show win2_3.index t (0 : Fin 2) * 1 + 1 * (y 0).val = (y 0).val; omega
  | ⟨1, _⟩ => show win2_3.index t (1 : Fin 2) * 64 + 1 * (y 1).val = (y 1).val; omega

theorem blk_w2 (c : Dev nD) (t : Fin cfg2.N) : iblk2 V c 4 t = V c main_arg11 := by
  obtain ⟨-, -, -, -, -, -, -, -, e0, e1, -⟩ := idx_facts t
  funext y
  show V c main_arg11 (((cfg2.win 4).blk t).view.emb y) = V c main_arg11 y
  refine congrArg (V c main_arg11) (funext fun a => Fin.ext ?_)
  match a with
  | ⟨0, _⟩ => show win2_4.index t (0 : Fin 2) * 64 + 1 * (y 0).val = (y 0).val; omega
  | ⟨1, _⟩ => show win2_4.index t (1 : Fin 2) * 64 + 1 * (y 1).val = (y 1).val; omega

theorem blk_b2 (c : Dev nD) (t : Fin cfg2.N) : iblk2 V c 5 t = V c main_v37 := by
  obtain ⟨-, -, -, -, -, -, -, -, -, -, e0, e1, -⟩ := idx_facts t
  funext y
  show V c main_v37 (((cfg2.win 5).blk t).view.emb y) = V c main_v37 y
  refine congrArg (V c main_v37) (funext fun a => Fin.ext ?_)
  match a with
  | ⟨0, _⟩ => show win2_5.index t (0 : Fin 2) * 1 + 1 * (y 0).val = (y 0).val; omega
  | ⟨1, _⟩ => show win2_5.index t (1 : Fin 2) * 64 + 1 * (y 1).val = (y 1).val; omega

/-- The array the region leaves, as a function of the arrays it is entered with. -/
abbrev result (c : Dev nD) : Mat 100000 64 :=
  mlp (V c main_v25) (V c main_v35) (V c main_arg9) (V c main_v36) (V c main_arg11) (V c main_v37)

/-- WHAT POINT `t` WRITES BACK is block `t` of `result`. -/
theorem flushed_eq (c : Dev nD) (t : Fin cfg2.N) :
    (dat2 V c).flushed 6 t = ((cfg2.win 6).blk t).view.read (Elt Ideal) (result V c) := by
  show (cfg2.win 6).cut (grid2.coords t) ((dat2 V c).after 6 t) = _
  rw [after2_6]
  unfold out2_6
  rw [View.canon_unit_zero hz]
  simp only [View.ld_unit_zero (S := S5000x64) hz, View.ld_unit_zero (S := S64x64) hz, View.ld_unit_zero (S := S1x64) hz,
    View.ld_unit_zero (S := S64x64) hz]
  rw [Payloads.mlp_second, blk_w1, blk_b1, blk_w2, blk_b2]
  obtain ⟨-, -, -, -, -, -, -, -, -, -, -, -, e0, e1⟩ := idx_facts t
  funext j
  obtain ⟨p, q, rfl⟩ : ∃ (p : Fin 5000) (q : Fin 64), j = ix2 p q := ⟨j 0, j 1, eq_ix2 j⟩
  show mlp (iblk2 V c 0 t) (iblk2 V c 1 t) (V c main_arg9) (V c main_v36) (V c main_arg11) (V c main_v37) (ix2 p q)
    = result V c (((cfg2.win 6).blk t).view.emb (ix2 p q))
  have hemb : ((cfg2.win 6).blk t).view.emb (ix2 p q) = ix2 (row t p) q := by
    funext a; apply Fin.ext
    match a with
    | ⟨0, _⟩ => show win2_6.index t (0 : Fin 2) * 5000 + 1 * p.val = t.val * 5000 + p.val; omega
    | ⟨1, _⟩ => show win2_6.index t (1 : Fin 2) * 64 + 1 * q.val = q.val; omega
  rw [hemb]
  exact mlp_rows (row t) _ _ _ _ (blk_x V c t) (blk_agg V c t) _ _ _ _ p q

/-- An index of the array is in point `t`'s block iff each coordinate is in the block's range on its axis. -/
theorem mem_blk (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v38).slice (win2_6.rect t)).set ↔ _
  rw [View.set_slice_whole, Rect.mem_set_unit]
  exact Iff.rfl

/-- Every row is in the block of the point 5000 divides it to. -/
theorem cover (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  let t : Fin cfg2.N := ⟨(i 0).val / 5000, by show (i 0).val / 5000 < 20; omega⟩
  obtain ⟨-, -, -, -, -, -, -, -, -, -, -, -, e0, e1⟩ := idx_facts t
  have ht : t.val = (i 0).val / 5000 := rfl
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

/-- THE ARRAY the region leaves at its output window: the perceptron of the arrays it was entered with. -/
theorem final (c : Dev nD) : (dat2 V c).arrAt 6 cfg2.N = result V c :=
  (dat2 V c).arrAt_eq_of_cover 6 (result V c) (fun t _ => flushed_eq V c t) cover

end Cert.KernelIdeal.RegionMlp2

end
-- ==== Proof.RegionBn2.lean ====
/-
  The second normalisation region, read as a value. Point t of the twenty stages rows 5000·t … 5000·t + 4999 of the array to
  normalise and the mean, variance, scale and shift rows whole, and writes back the same rows of the result. A row of
  the normalised array depends on that row of the input only, so point t writes back block t of `bnrelu` of the whole
  arrays, and the twenty blocks tile the 100000 rows.
-/
import proofs.«113887_j35519379538034_1_alg».proof.Proof.Gen.KernelIdeal.Frame
import proofs.«113887_j35519379538034_1_alg».proof.Proof.KernelPayloads
import Idealize.ShloMosaic.Lib.Pipeline.Value

noncomputable section

namespace Cert.KernelIdeal.RegionBn2

open Cert.KernelIdeal Cert.KernelIdeal.Gen Idealize.ShloMosaic Idealize.ShloMosaic.TcCoe Idealize.SL.Sem
open Idealize.ShloMosaic.ValueIdx Cert.GinSpec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input and the output sit at block (t, 0), the four rows at block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `p` of point `t`'s block is row 5000·t + p of the array. -/
def row (t : Fin cfg3.N) (p : Fin 5000) : Fin 100000 :=
  ⟨t.val * 5000 + p.val, by have h : t.val < 20 := t.isLt; have := p.isLt; omega⟩

theorem blk_y (c : Dev nD) (t : Fin cfg3.N) (p : Fin 5000) (q : Fin 64) :
    iblk3 V c 0 t (ix2 p q) = V c main_v38 (ix2 (row t p) q) := by
  obtain ⟨e0, e1, -⟩ := idx_facts t
  show V c main_v38 (((cfg3.win 0).blk t).view.emb (ix2 p q)) = V c main_v38 (ix2 (row t p) q)
  refine congrArg (V c main_v38) (funext fun a => Fin.ext ?_)
  match a with
  | ⟨0, _⟩ => show win3_0.index t (0 : Fin 2) * 5000 + 1 * p.val = t.val * 5000 + p.val; omega
  | ⟨1, _⟩ => show win3_0.index t (1 : Fin 2) * 64 + 1 * q.val = q.val; omega

theorem blk_mean (c : Dev nD) (t : Fin cfg3.N) : iblk3 V c 1 t = V c main_v43 := by
  obtain ⟨-, -, e0, e1, -⟩ := idx_facts t
  funext y
  show V c main_v43 (((cfg3.win 1).blk t).view.emb y) = V c main_v43 y
  refine congrArg (V c main_v43) (funext fun a => Fin.ext ?_)
  match a with
  | ⟨0, _⟩ => show win3_1.index t (0 : Fin 2) * 1 + 1 * (y 0).val = (y 0).val; omega
  | ⟨1, _⟩ => show win3_1.index t (1 : Fin 2) * 64 + 1 * (y 1).val = (y 1).val; omega

theorem blk_var (c : Dev nD) (t : Fin cfg3.N) : iblk3 V c 2 t = V c main_v44 := by
  obtain ⟨-, -, -, -, e0, e1, -⟩ := idx_facts t
  funext y
  show V c main_v44 (((cfg3.win 2).blk t).view.emb y) = V c main_v44 y
  refine congrArg (V c main_v44) (funext fun a => Fin.ext ?_)
  match a with
  | ⟨0, _⟩ => show win3_2.index t (0 : Fin 2) * 1 + 1 * (y 0).val = (y 0).val; omega
  | ⟨1, _⟩ => show win3_2.index t (1 : Fin 2) * 64 + 1 * (y 1).val = (y 1).val; omega

theorem blk_gamma (c : Dev nD) (t : Fin cfg3.N) : iblk3 V c 3 t = V c main_v45 := by
  obtain ⟨-, -, -, -, -, -, e0, e1, -⟩ := idx_facts t
  funext y
  show V c main_v45 (((cfg3.win 3).blk t).view.emb y) = V c main_v45 y
  refine congrArg (V c main_v45) (funext fun a => Fin.ext ?_)
  match a with
  | ⟨0, _⟩ => show win3_3.index t (0 : Fin 2) * 1 + 1 * (y 0).val = (y 0).val; omega
  | ⟨1, _⟩ => show win3_3.index t (1 : Fin 2) * 64 + 1 * (y 1).val = (y 1).val; omega

theorem blk_beta (c : Dev nD) (t : Fin cfg3.N) : iblk3 V c 4 t = V c main_v46 := by
  obtain ⟨-, -, -, -, -, -, -, -, e0, e1, -⟩ := idx_facts t
  funext y
  show V c main_v46 (((cfg3.win 4).blk t).view.emb y) = V c main_v46 y
  refine congrArg (V c main_v46) (funext fun a => Fin.ext ?_)
  match a with
  | ⟨0, _⟩ => show win3_4.index t (0 : Fin 2) * 1 + 1 * (y 0).val = (y 0).val; omega
  | ⟨1, _⟩ => show win3_4.index t (1 : Fin 2) * 64 + 1 * (y 1).val = (y 1).val; omega

/-- The array the region leaves, as a function of the arrays it is entered with. -/
abbrev result (c : Dev nD) : Mat 100000 64 :=
  bnrelu (V c main_v38) (V c main_v43) (V c main_v44) (V c main_v45) (V c main_v46)

/-- WHAT POINT `t` WRITES BACK is block `t` of `result`. -/
theorem flushed_eq (c : Dev nD) (t : Fin cfg3.N) :
    (dat3 V c).flushed 5 t = ((cfg3.win 5).blk t).view.read (Elt Ideal) (result V c) := by
  show (cfg3.win 5).cut (grid3.coords t) ((dat3 V c).after 5 t) = _
  rw [after3_5]
  unfold out3_5
  rw [View.canon_unit_zero hz]
  simp only [View.ld_unit_zero (S := S5000x64) hz, View.ld_unit_zero (S := S1x64) hz]
  rw [Payloads.bn_second, blk_mean, blk_var, blk_gamma, blk_beta]
  obtain ⟨-, -, -, -, -, -, -, -, -, -, e0, e1⟩ := idx_facts t
  funext j
  obtain ⟨p, q, rfl⟩ : ∃ (p : Fin 5000) (q : Fin 64), j = ix2 p q := ⟨j 0, j 1, eq_ix2 j⟩
  show bnrelu (iblk3 V c 0 t) (V c main_v43) (V c main_v44) (V c main_v45) (V c main_v46) (ix2 p q)
    = result V c (((cfg3.win 5).blk t).view.emb (ix2 p q))
  have hemb : ((cfg3.win 5).blk t).view.emb (ix2 p q) = ix2 (row t p) q := by
    funext a; apply Fin.ext
    match a with
    | ⟨0, _⟩ => show win3_5.index t (0 : Fin 2) * 5000 + 1 * p.val = t.val * 5000 + p.val; omega
    | ⟨1, _⟩ => show win3_5.index t (1 : Fin 2) * 64 + 1 * q.val = q.val; omega
  rw [hemb]
  exact bnrelu_rows (row t) _ _ (blk_y V c t) _ _ _ _ p q

/-- An index of the array is in point `t`'s block iff each coordinate is in the block's range on its axis. -/
theorem mem_blk (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v47).slice (win3_5.rect t)).set ↔ _
  rw [View.set_slice_whole, Rect.mem_set_unit]
  exact Iff.rfl

/-- Every row is in the block of the point 5000 divides it to. -/
theorem cover (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  let t : Fin cfg3.N := ⟨(i 0).val / 5000, by show (i 0).val / 5000 < 20; omega⟩
  obtain ⟨-, -, -, -, -, -, -, -, -, -, e0, e1⟩ := idx_facts t
  have ht : t.val = (i 0).val / 5000 := rfl
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

/-- THE ARRAY the region leaves at its output window: the normalisation of the arrays it was entered with. -/
theorem final (c : Dev nD) : (dat3 V c).arrAt 5 cfg3.N = result V c :=
  (dat3 V c).arrAt_eq_of_cover 5 (result V c) (fun t _ => flushed_eq V c t) cover

end Cert.KernelIdeal.RegionBn2

end
-- ==== Proof.RefStages.lean ====
/-
  The reference computation, stage by stage, at the ideal instance: each definition is the composition of the
  reference program's own host operation functions over the contents of the buffers it reads — the edge index
  tables, the neighbour sums by gather and scatter-add, the two-layer perceptrons, the column mean and variance,
  the normalisation, and the per-graph mean pooling — and `out` composes them into the result as a function of
  the fifteen arguments.
-/
import proofs.«113887_j35519379538034_1_alg».proof.Proof.Gen.ReferenceIdeal
import Idealize.ShloMosaic.PureOps.Ideal

noncomputable section

namespace Cert.ReferenceIdeal.Stages

open Cert.ReferenceIdeal Cert.ReferenceIdeal.Gen Idealize.ShloMosaic

/-- The source row of the edge table, as a vector: row 0 sliced out and reshaped. -/
def src (ei : IVec S2x1600000 32) : IVec S1600000 32 :=
  shapeCast S1600000 (extractStridedSlice S1x1600000 ![0, 0] ei slices_S2x1600000_S1x1600000_0_0) shapeCasts_S1x1600000_S1600000

/-- The destination row of the edge table, as a vector: row 1 sliced out and reshaped. -/
def dst (ei : IVec S2x1600000 32) : IVec S1600000 32 :=
  shapeCast S1600000 (extractStridedSlice S1x1600000 ![1, 0] ei slices_S2x1600000_S1x1600000_1_0) shapeCasts_S1x1600000_S1600000

/-- The gather's index column: each source index, wrapped by the row count where negative. -/
def gidx (ei : IVec S2x1600000 32) : IVec S1600000x1 32 :=
  broadcastInDim S1600000x1 ![0] bcast_S1600000_S1600000x1_0
    (select (cmpi .slt (src ei) (broadcastInDim S1600000 ![] bcast_S_S1600000 (constantI S_ 32 0#32)))
      (addi (src ei) (broadcastInDim S1600000 ![] bcast_S_S1600000 (constantI S_ 32 100000#32)))
      (src ei))

/-- The scatter's index column: the destination indices. -/
def didx (ei : IVec S2x1600000 32) : IVec S1600000x1 32 :=
  broadcastInDim S1600000x1 ![0] bcast_S1600000_S1600000x1_0 (dst ei)

/-- The neighbour sum at width 128: the source rows gathered, added into zeros at the destination rows. -/
def agg128 (x : FVec Ideal S100000x128 .f32) (ei : IVec S2x1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (didx ei)
    (Host.gather gather_S100000x128_S1600000x1_S1600000x128_1_0_n_n_0_1_1128 x (gidx ei))

/-- The neighbour sum at width 64. -/
def agg64 (h : FVec Ideal S100000x64 .f32) (ei : IVec S2x1600000 32) : FVec Ideal S100000x64 .f32 :=
  Host.scatterAdd scatter_S100000x64_S1600000x1_S1600000x64_1_0_0_1
    (broadcastInDim S100000x64 ![] bcast_S_S100000x64 (constant (F := Ideal) S_ .f32 0x00000000#32))
    (didx ei)
    (Host.gather gather_S100000x64_S1600000x1_S1600000x64_1_0_n_n_0_1_164 h (gidx ei))

/-- A vector of 64 as a single row. -/
def row (b : FVec Ideal S64 .f32) : FVec Ideal S1x64 .f32 :=
  broadcastInDim S1x64 ![1] bcast_S64_S1x64_1 b

/-- A single row repeated down the 100000 rows. -/
def rows (r : FVec Ideal S1x64 .f32) : FVec Ideal S100000x64 .f32 :=
  broadcastInDim S100000x64 ![0, 1] bcast_S1x64_S100000x64_0_1 r

/-- The rectifier: the elementwise maximum with zero. -/
def relu (y : FVec Ideal S100000x64 .f32) : FVec Ideal S100000x64 .f32 :=
  maximumf y (broadcastInDim S100000x64 ![] bcast_S_S100000x64 (constant (F := Ideal) S_ .f32 0x00000000#32))

/-- The affine layer from width 128: the product with the weights plus the bias on every row. -/
def lin128 (x : FVec Ideal S100000x128 .f32) (W : FVec Ideal S128x64 .f32) (b : FVec Ideal S64 .f32) : FVec Ideal S100000x64 .f32 :=
  addf (Host.dotGeneral dot_S100000x128_S128x64_S100000x64_1_0_0_1_n_n none x W) (rows (row b))

/-- The affine layer from width 64. -/
def lin64 (x : FVec Ideal S100000x64 .f32) (W : FVec Ideal S64x64 .f32) (b : FVec Ideal S64 .f32) : FVec Ideal S100000x64 .f32 :=
  addf (Host.dotGeneral dot_S100000x64_S64x64_S100000x64_1_0_0_1_n_n none x W) (rows (row b))

/-- The two-layer perceptron on `x + a` from width 128. -/
def mlp128 (x a : FVec Ideal S100000x128 .f32) (W1 : FVec Ideal S128x64 .f32) (b1 : FVec Ideal S64 .f32)
    (W2 : FVec Ideal S64x64 .f32) (b2 : FVec Ideal S64 .f32) : FVec Ideal S100000x64 .f32 :=
  lin64 (relu (lin128 (addf x a) W1 b1)) W2 b2

/-- The two-layer perceptron on `x + a` from width 64. -/
def mlp64 (x a : FVec Ideal S100000x64 .f32) (W1 : FVec Ideal S64x64 .f32) (b1 : FVec Ideal S64 .f32)
    (W2 : FVec Ideal S64x64 .f32) (b2 : FVec Ideal S64 .f32) : FVec Ideal S100000x64 .f32 :=
  lin64 (relu (lin64 (addf x a) W1 b1)) W2 b2

/-- The column mean: the column sums over 100000. -/
def mean (y : FVec Ideal S100000x64 .f32) : FVec Ideal S64 .f32 :=
  Host.divf (Host.reduceAdd y (constant (F := Ideal) S_ .f32 0x00000000#32) reducesTo_S100000x64_S64_d0 h_S_)
    (broadcastInDim S64 ![] bcast_S_S64 (constant (F := Ideal) S_ .f32 0x47C35000#32))

/-- The variance's divisor: 100000 minus the correction 0, as a float. -/
def varN : FVec Ideal S_ .f32 :=
  subf (constant (F := Ideal) S_ .f32 0x47C35000#32) (sitofp .f32 (constantI S_ 32 0#32))

/-- The columns centred: each entry minus its column's mean, the mean taken as the variance function takes it
    (the column sums as a row, over a row of 100000). -/
def cent (y : FVec Ideal S100000x64 .f32) : FVec Ideal S100000x64 .f32 :=
  subf y (rows (Host.divf
    (row (Host.reduceAdd y (constant (F := Ideal) S_ .f32 0x00000000#32) reducesTo_S100000x64_S64_d0 h_S_))
    (broadcastInDim S1x64 ![] bcast_S_S1x64 (constant (F := Ideal) S_ .f32 0x47C35000#32))))

/-- The column variance: the column sums of the centred squares over the divisor where that is positive, else
    not-a-number. -/
def var (y : FVec Ideal S100000x64 .f32) : FVec Ideal S64 .f32 :=
  select (broadcastInDim S64 ![] bcast_S_S64 (cmpf .ogt varN (constant (F := Ideal) S_ .f32 0x00000000#32)))
    (Host.divf
      (Host.reduceAdd (mulf (cent y) (cent y)) (constant (F := Ideal) S_ .f32 0x00000000#32) reducesTo_S100000x64_S64_d0 h_S_)
      (broadcastInDim S64 ![] bcast_S_S64 varN))
    (broadcastInDim S64 ![] bcast_S_S64 (constant (F := Ideal) S_ .f32 0x7FC00000#32))

/-- The normalisation: centred by `mu`, scaled by the reciprocal root of `va` plus the small constant, then by
    `gamma`, shifted by `beta`. -/
def bn (y : FVec Ideal S100000x64 .f32) (mu va gamma beta : FVec Ideal S64 .f32) : FVec Ideal S100000x64 .f32 :=
  addf (mulf (mulf (subf y (rows (row mu)))
      (rows (row (Host.rsqrt (addf va (broadcastInDim S64 ![] bcast_S_S64 (constant (F := Ideal) S_ .f32 0x3727C5AC#32)))))))
    (rows (row gamma))) (rows (row beta))

/-- The per-graph mean: the rows summed into their graph's row, over the graph's row count (at least one). -/
def pool (h : FVec Ideal S100000x64 .f32) (batch : IVec S100000 32) : FVec Ideal S512x64 .f32 :=
  Host.divf
    (Host.scatterAdd scatter_S512x64_S100000x1_S100000x64_1_0_0_1
      (broadcastInDim S512x64 ![] bcast_S_S512x64 (constant (F := Ideal) S_ .f32 0x00000000#32))
      (broadcastInDim S100000x1 ![0] bcast_S100000_S100000x1_0 batch)
      h)
    (broadcastInDim S512x64 ![0, 1] bcast_S512x1_S512x64_0_1
      (maximumf
        (Host.scatterAdd scatter_S512x1_S100000x1_S100000x1_1_0_0_1
          (broadcastInDim S512x1 ![] bcast_S_S512x1 (constant (F := Ideal) S_ .f32 0x00000000#32))
          (broadcastInDim S100000x1 ![0] bcast_S100000_S100000x1_0 batch)
          (broadcastInDim S100000x1 ![] bcast_S_S100000x1 (constant (F := Ideal) S_ .f32 0x3F800000#32)))
        (broadcastInDim S512x1 ![] bcast_S_S512x1 (constant (F := Ideal) S_ .f32 0x3F800000#32))))

/-- The first layer's output: the perceptron on `x` plus its neighbour sum, normalised by its own column mean
    and variance, rectified. -/
def h1 (x : FVec Ideal S100000x128 .f32) (ei : IVec S2x1600000 32) (W1a : FVec Ideal S128x64 .f32) (b1a : FVec Ideal S64 .f32)
    (W2a : FVec Ideal S64x64 .f32) (b2a gamma1 beta1 : FVec Ideal S64 .f32) : FVec Ideal S100000x64 .f32 :=
  relu (bn (mlp128 x (agg128 x ei) W1a b1a W2a b2a) (mean (mlp128 x (agg128 x ei) W1a b1a W2a b2a))
    (var (mlp128 x (agg128 x ei) W1a b1a W2a b2a)) gamma1 beta1)

/-- The second layer's output, likewise from the first's. -/
def h2 (h : FVec Ideal S100000x64 .f32) (ei : IVec S2x1600000 32) (W1b : FVec Ideal S64x64 .f32) (b1b : FVec Ideal S64 .f32)
    (W2b : FVec Ideal S64x64 .f32) (b2b gamma2 beta2 : FVec Ideal S64 .f32) : FVec Ideal S100000x64 .f32 :=
  relu (bn (mlp64 h (agg64 h ei) W1b b1b W2b b2b) (mean (mlp64 h (agg64 h ei) W1b b1b W2b b2b))
    (var (mlp64 h (agg64 h ei) W1b b1b W2b b2b)) gamma2 beta2)

/-- The result: the second layer's output pooled per graph. -/
def out (x : FVec Ideal S100000x128 .f32) (ei : IVec S2x1600000 32) (batch : IVec S100000 32)
    (W1a : FVec Ideal S128x64 .f32) (b1a : FVec Ideal S64 .f32) (W2a : FVec Ideal S64x64 .f32) (b2a gamma1 beta1 : FVec Ideal S64 .f32)
    (W1b : FVec Ideal S64x64 .f32) (b1b : FVec Ideal S64 .f32) (W2b : FVec Ideal S64x64 .f32) (b2b gamma2 beta2 : FVec Ideal S64 .f32) :
    FVec Ideal S512x64 .f32 :=
  pool (h2 (h1 x ei W1a b1a W2a b2a gamma1 beta1) ei W1b b1b W2b b2b gamma2 beta2) batch

end Cert.ReferenceIdeal.Stages

end
-- ==== Proof.RefForms.lean ====
/-
  The reference's dense stages, spelt with host operations, are the stage functions: a host dot product plus a bias
  broadcast in two steps ([64] → [1, 64] → [100000, 64]) is `affine` at the bias read as a row; the host rectifier is
  `relu`; so the host perceptron is `mlp`, and the host normalisation followed by the rectifier is `bnrelu` at the mean,
  variance, scale and shift read as rows. A [64] array reshaped to [1, 64] is that same row.
-/
import proofs.«113887_j35519379538034_1_alg».proof.Proof.RefStages
import proofs.«113887_j35519379538034_1_alg».proof.Proof.SpecForms

noncomputable section

namespace Cert.ReferenceIdeal.Forms

open Cert.ReferenceIdeal Cert.ReferenceIdeal.Gen Idealize.ShloMosaic Idealize.ShloMosaic.ValueIdx Cert.GinSpec

theorem rows_apply (r : FVec Ideal S1x64 .f32) (p : Fin 100000) (q : Fin 64) :
    Stages.rows r (ix2 p q) = r (ix2 (0 : Fin 1) q) := by
  unfold Stages.rows
  refine broadcastInDim_apply _ _ r (ix2 p q) (ix2 (0 : Fin 1) q) fun a => ?_
  match a with
  | ⟨0, _⟩ => rfl
  | ⟨1, _⟩ => rfl

theorem row_apply (b : FVec Ideal S64 .f32) (u : Fin 1) (q : Fin 64) :
    Stages.row b (ix2 u q) = b (ix1 q) := by
  unfold Stages.row
  refine broadcastInDim_apply _ _ b (ix2 u q) (ix1 q) fun a => ?_
  match a with
  | ⟨0, _⟩ => rfl

/-- A [64] array reshaped to [1, 64] is the array read as a row. -/
theorem shapeCast_eq_row (b : FVec Ideal S64 .f32) (h : S64.ShapeCasts S1x64) : shapeCast S1x64 b h = Stages.row b := by
  funext j
  obtain ⟨u, q, rfl⟩ : ∃ (u : Fin 1) (q : Fin 64), j = ix2 u q := ⟨j 0, j 1, eq_ix2 j⟩
  rw [row_apply]
  exact shapeCast_a_1a_apply b h u q

theorem relu_eq (y : FVec Ideal S100000x64 .f32) : Stages.relu y = GinSpec.relu y := by
  funext j
  unfold Stages.relu GinSpec.relu
  show max (y j) (broadcastInDim S100000x64 ![] bcast_S_S100000x64 (constant (F := Ideal) S_ .f32 0x00000000#32) j) = max (y j) zeroF
  rw [broadcastInDim_apply _ _ _ j ix0 (fun a => a.elim0)]
  rfl

theorem lin128_eq (x : FVec Ideal S100000x128 .f32) (W : FVec Ideal S128x64 .f32) (b : FVec Ideal S64 .f32) :
    Stages.lin128 x W b = affine x W (Stages.row b) := by
  funext j
  obtain ⟨p, q, rfl⟩ : ∃ (p : Fin 100000) (q : Fin 64), j = ix2 p q := ⟨j 0, j 1, eq_ix2 j⟩
  unfold Stages.lin128 affine
  show Host.dotGeneral dot_S100000x128_S128x64_S100000x64_1_0_0_1_n_n none x W (ix2 p q) + Stages.rows (Stages.row b) (ix2 p q) = _
  rw [DotPlain.dotGeneral_apply ⟨rfl, rfl, rfl, rfl, rfl, rfl⟩, rows_apply]

theorem lin64_eq (x : FVec Ideal S100000x64 .f32) (W : FVec Ideal S64x64 .f32) (b : FVec Ideal S64 .f32) :
    Stages.lin64 x W b = affine x W (Stages.row b) := by
  funext j
  obtain ⟨p, q, rfl⟩ : ∃ (p : Fin 100000) (q : Fin 64), j = ix2 p q := ⟨j 0, j 1, eq_ix2 j⟩
  unfold Stages.lin64 affine
  show Host.dotGeneral dot_S100000x64_S64x64_S100000x64_1_0_0_1_n_n none x W (ix2 p q) + Stages.rows (Stages.row b) (ix2 p q) = _
  rw [DotPlain.dotGeneral_apply ⟨rfl, rfl, rfl, rfl, rfl, rfl⟩, rows_apply]

/-- The host perceptron from width 128 is `mlp`. -/
theorem mlp128_eq (x a : FVec Ideal S100000x128 .f32) (W1 : FVec Ideal S128x64 .f32) (b1 : FVec Ideal S64 .f32)
    (W2 : FVec Ideal S64x64 .f32) (b2 : FVec Ideal S64 .f32) :
    Stages.mlp128 x a W1 b1 W2 b2 = mlp x a W1 (Stages.row b1) W2 (Stages.row b2) := by
  unfold Stages.mlp128 mlp
  rw [lin64_eq, relu_eq, lin128_eq]
  rfl

/-- The host perceptron from width 64 is `mlp`. -/
theorem mlp64_eq (x a : FVec Ideal S100000x64 .f32) (W1 : FVec Ideal S64x64 .f32) (b1 : FVec Ideal S64 .f32)
    (W2 : FVec Ideal S64x64 .f32) (b2 : FVec Ideal S64 .f32) :
    Stages.mlp64 x a W1 b1 W2 b2 = mlp x a W1 (Stages.row b1) W2 (Stages.row b2) := by
  unfold Stages.mlp64 mlp
  rw [lin64_eq, relu_eq, lin64_eq]
  rfl

/-- The host normalisation followed by the rectifier is `bnrelu` at the rows. -/
theorem bnrelu_eq (y : FVec Ideal S100000x64 .f32) (mu va gamma beta : FVec Ideal S64 .f32) :
    Stages.relu (Stages.bn y mu va gamma beta)
      = bnrelu y (Stages.row mu) (Stages.row va) (Stages.row gamma) (Stages.row beta) := by
  rw [relu_eq]
  funext j
  obtain ⟨p, q, rfl⟩ : ∃ (p : Fin 100000) (q : Fin 64), j = ix2 p q := ⟨j 0, j 1, eq_ix2 j⟩
  unfold Stages.bn GinSpec.relu bnrelu
  show max ((y (ix2 p q) - Stages.rows (Stages.row mu) (ix2 p q))
        * Stages.rows (Stages.row (Host.rsqrt (addf va (broadcastInDim S64 ![] bcast_S_S64 (constant (F := Ideal) S_ .f32 0x3727C5AC#32))))) (ix2 p q)
        * Stages.rows (Stages.row gamma) (ix2 p q) + Stages.rows (Stages.row beta) (ix2 p q)) zeroF
     = max ((y (ix2 p q) - Stages.row mu (ix2 0 q)) * Ideal.rsqrt (Stages.row va (ix2 0 q) + epsF)
        * Stages.row gamma (ix2 0 q) + Stages.row beta (ix2 0 q)) zeroF
  simp only [rows_apply, row_apply]
  show max ((y (ix2 p q) - mu (ix1 q))
        * Ideal.rsqrt (va (ix1 q) + broadcastInDim S64 ![] bcast_S_S64 (constant (F := Ideal) S_ .f32 0x3727C5AC#32) (ix1 q))
        * gamma (ix1 q) + beta (ix1 q)) zeroF = _
  rw [broadcastInDim_apply _ _ _ (ix1 q) ix0 (fun a => a.elim0)]
  rfl

end Cert.ReferenceIdeal.Forms

end
-- ==== Proof.KernelValue.lean ====
/-
  The kernel program's result as a function of its arguments. Its run passes thirteen boundaries: host stretches and four
  pipelined regions alternate. At each boundary the buffers that matter later are read as functions of the argument
  arrays: the edge lists' two rows and the neighbour sums come from the same host operations as the reference's; each
  perceptron region leaves `mlp` of the arrays it is entered with and each normalisation region `bnrelu`; the column
  means and variances between them are the reference's host chains applied to the region's result; the arguments pass
  through untouched. Put together, the result buffer holds the reference's pooling of its second hidden layer, and the
  two hidden layers are the reference's by the host spellings of `mlp` and `bnrelu`.
-/
import proofs.«113887_j35519379538034_1_alg».proof.Proof.Gen.KernelIdeal.Frame
import proofs.«113887_j35519379538034_1_alg».proof.Proof.RegionMlp1
import proofs.«113887_j35519379538034_1_alg».proof.Proof.RegionBn1
import proofs.«113887_j35519379538034_1_alg».proof.Proof.RegionMlp2
import proofs.«113887_j35519379538034_1_alg».proof.Proof.RegionBn2
import proofs.«113887_j35519379538034_1_alg».proof.Proof.RefForms

noncomputable section

namespace Cert.KernelIdeal.Value

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-! ## The values along the run -/

/-- The first perceptron's result. -/
def z1 : Cert.GinSpec.Mat 100000 64 :=
  Cert.GinSpec.mlp (arg m c main_arg0) (Cert.ReferenceIdeal.Stages.agg128 (arg m c main_arg0) (arg m c main_arg1)) (arg m c main_arg3) (Cert.ReferenceIdeal.Stages.row (arg m c main_arg4)) (arg m c main_arg5) (Cert.ReferenceIdeal.Stages.row (arg m c main_arg6))
/-- The first hidden layer. -/
def h1 : Cert.GinSpec.Mat 100000 64 :=
  Cert.GinSpec.bnrelu (z1 m c) (Cert.ReferenceIdeal.Stages.row (Cert.ReferenceIdeal.Stages.mean (z1 m c))) (Cert.ReferenceIdeal.Stages.row (Cert.ReferenceIdeal.Stages.var (z1 m c))) (Cert.ReferenceIdeal.Stages.row (arg m c main_arg7)) (Cert.ReferenceIdeal.Stages.row (arg m c main_arg8))
/-- The second perceptron's result. -/
def z2 : Cert.GinSpec.Mat 100000 64 :=
  Cert.GinSpec.mlp (h1 m c) (Cert.ReferenceIdeal.Stages.agg64 (h1 m c) (arg m c main_arg1)) (arg m c main_arg9) (Cert.ReferenceIdeal.Stages.row (arg m c main_arg10)) (arg m c main_arg11) (Cert.ReferenceIdeal.Stages.row (arg m c main_arg12))
/-- The second hidden layer. -/
def h2 : Cert.GinSpec.Mat 100000 64 :=
  Cert.GinSpec.bnrelu (z2 m c) (Cert.ReferenceIdeal.Stages.row (Cert.ReferenceIdeal.Stages.mean (z2 m c))) (Cert.ReferenceIdeal.Stages.row (Cert.ReferenceIdeal.Stages.var (z2 m c))) (Cert.ReferenceIdeal.Stages.row (arg m c main_arg13)) (Cert.ReferenceIdeal.Stages.row (arg m c main_arg14))

/-! ## Entering the first perceptron region -/

theorem w1_x : W1 m ρ c (Proc.devRef .tc main_arg0) = (arg m c main_arg0) := by after_results
theorem w1_w1 : W1 m ρ c (Proc.devRef .tc main_arg3) = (arg m c main_arg3) := by after_results
theorem w1_w2 : W1 m ρ c (Proc.devRef .tc main_arg5) = (arg m c main_arg5) := by after_results
theorem w1_b1 : W1 m ρ c (Proc.devRef .tc main_v14) = Cert.ReferenceIdeal.Stages.row (arg m c main_arg4) := by
  after_results; exact Cert.ReferenceIdeal.Forms.shapeCast_eq_row _ _
theorem w1_b2 : W1 m ρ c (Proc.devRef .tc main_v15) = Cert.ReferenceIdeal.Stages.row (arg m c main_arg6) := by
  after_results; exact Cert.ReferenceIdeal.Forms.shapeCast_eq_row _ _
theorem w1_src : W1 m ρ c (Proc.devRef .tc main_v1) = Cert.ReferenceIdeal.Stages.src (arg m c main_arg1) := by after_results; rfl
theorem w1_dst : W1 m ρ c (Proc.devRef .tc main_v3) = Cert.ReferenceIdeal.Stages.dst (arg m c main_arg1) := by after_results; rfl
theorem w1_agg : W1 m ρ c (Proc.devRef .tc main_v13) = Cert.ReferenceIdeal.Stages.agg128 (arg m c main_arg0) (arg m c main_arg1) := by after_results; rfl

/-! ## Leaving it -/

theorem w2_z : W2 m ρ c (Proc.devRef .tc main_v16) = z1 m c := by
  refine (W2_arr m ρ c 6).trans ((RegionMlp1.final (V1 m ρ) c).trans ?_)
  show Cert.GinSpec.mlp (W1 m ρ c (Proc.devRef .tc main_arg0)) (W1 m ρ c (Proc.devRef .tc main_v13)) (W1 m ρ c (Proc.devRef .tc main_arg3))
    (W1 m ρ c (Proc.devRef .tc main_v14)) (W1 m ρ c (Proc.devRef .tc main_arg5)) (W1 m ρ c (Proc.devRef .tc main_v15)) = _
  rw [w1_x, w1_agg, w1_w1, w1_b1, w1_w2, w1_b2]
  rfl
theorem w2_arg2 : W2 m ρ c (Proc.devRef .tc main_arg2) = (arg m c main_arg2) := by
  rw [W2_of_ne m ρ c main_arg2 (by decide)]; after_results
theorem w2_arg7 : W2 m ρ c (Proc.devRef .tc main_arg7) = (arg m c main_arg7) := by
  rw [W2_of_ne m ρ c main_arg7 (by decide)]; after_results
theorem w2_arg8 : W2 m ρ c (Proc.devRef .tc main_arg8) = (arg m c main_arg8) := by
  rw [W2_of_ne m ρ c main_arg8 (by decide)]; after_results
theorem w2_arg9 : W2 m ρ c (Proc.devRef .tc main_arg9) = (arg m c main_arg9) := by
  rw [W2_of_ne m ρ c main_arg9 (by decide)]; after_results
theorem w2_arg10 : W2 m ρ c (Proc.devRef .tc main_arg10) = (arg m c main_arg10) := by
  rw [W2_of_ne m ρ c main_arg10 (by decide)]; after_results
theorem w2_arg11 : W2 m ρ c (Proc.devRef .tc main_arg11) = (arg m c main_arg11) := by
  rw [W2_of_ne m ρ c main_arg11 (by decide)]; after_results
theorem w2_arg12 : W2 m ρ c (Proc.devRef .tc main_arg12) = (arg m c main_arg12) := by
  rw [W2_of_ne m ρ c main_arg12 (by decide)]; after_results
theorem w2_arg13 : W2 m ρ c (Proc.devRef .tc main_arg13) = (arg m c main_arg13) := by
  rw [W2_of_ne m ρ c main_arg13 (by decide)]; after_results
theorem w2_arg14 : W2 m ρ c (Proc.devRef .tc main_arg14) = (arg m c main_arg14) := by
  rw [W2_of_ne m ρ c main_arg14 (by decide)]; after_results
theorem w2_src : W2 m ρ c (Proc.devRef .tc main_v1) = Cert.ReferenceIdeal.Stages.src (arg m c main_arg1) := by
  rw [W2_of_ne m ρ c main_v1 (by decide)]; exact w1_src m ρ c
theorem w2_dst : W2 m ρ c (Proc.devRef .tc main_v3) = Cert.ReferenceIdeal.Stages.dst (arg m c main_arg1) := by
  rw [W2_of_ne m ρ c main_v3 (by decide)]; exact w1_dst m ρ c

/-! ## Entering the first normalisation region: the column means and variances of the perceptron's result -/

theorem w5_z : W5 m ρ c (Proc.devRef .tc main_v16) = z1 m c := by after_results; exact w2_z m ρ c
theorem w5_mean : W5 m ρ c (Proc.devRef .tc main_v21) = Cert.ReferenceIdeal.Stages.row (Cert.ReferenceIdeal.Stages.mean (z1 m c)) := by
  after_results; rw [w2_z]; exact Cert.ReferenceIdeal.Forms.shapeCast_eq_row _ _
set_option maxHeartbeats 2000000 in
theorem w5_var : W5 m ρ c (Proc.devRef .tc main_v22) = Cert.ReferenceIdeal.Stages.row (Cert.ReferenceIdeal.Stages.var (z1 m c)) := by
  after_results_simp; rw [w2_z]; exact Cert.ReferenceIdeal.Forms.shapeCast_eq_row _ _
theorem w5_gamma : W5 m ρ c (Proc.devRef .tc main_v23) = Cert.ReferenceIdeal.Stages.row (arg m c main_arg7) := by
  after_results; rw [w2_arg7]; exact Cert.ReferenceIdeal.Forms.shapeCast_eq_row _ _
theorem w5_beta : W5 m ρ c (Proc.devRef .tc main_v24) = Cert.ReferenceIdeal.Stages.row (arg m c main_arg8) := by
  after_results; rw [w2_arg8]; exact Cert.ReferenceIdeal.Forms.shapeCast_eq_row _ _

/-! ## Leaving it -/

theorem w6_h : W6 m ρ c (Proc.devRef .tc main_v25) = h1 m c := by
  refine (W6_arr m ρ c 5).trans ((RegionBn1.final (V5 m ρ) c).trans ?_)
  show Cert.GinSpec.bnrelu (W5 m ρ c (Proc.devRef .tc main_v16)) (W5 m ρ c (Proc.devRef .tc main_v21)) (W5 m ρ c (Proc.devRef .tc main_v22))
    (W5 m ρ c (Proc.devRef .tc main_v23)) (W5 m ρ c (Proc.devRef .tc main_v24)) = _
  rw [w5_z, w5_mean, w5_var, w5_gamma, w5_beta]
  rfl
theorem w6_arg2 : W6 m ρ c (Proc.devRef .tc main_arg2) = (arg m c main_arg2) := by
  rw [W6_of_ne m ρ c main_arg2 (by decide)]; after_results; exact w2_arg2 m ρ c
theorem w6_arg9 : W6 m ρ c (Proc.devRef .tc main_arg9) = (arg m c main_arg9) := by
  rw [W6_of_ne m ρ c main_arg9 (by decide)]; after_results; exact w2_arg9 m ρ c
theorem w6_arg10 : W6 m ρ c (Proc.devRef .tc main_arg10) = (arg m c main_arg10) := by
  rw [W6_of_ne m ρ c main_arg10 (by decide)]; after_results; exact w2_arg10 m ρ c
theorem w6_arg11 : W6 m ρ c (Proc.devRef .tc main_arg11) = (arg m c main_arg11) := by
  rw [W6_of_ne m ρ c main_arg11 (by decide)]; after_results; exact w2_arg11 m ρ c
theorem w6_arg12 : W6 m ρ c (Proc.devRef .tc main_arg12) = (arg m c main_arg12) := by
  rw [W6_of_ne m ρ c main_arg12 (by decide)]; after_results; exact w2_arg12 m ρ c
theorem w6_arg13 : W6 m ρ c (Proc.devRef .tc main_arg13) = (arg m c main_arg13) := by
  rw [W6_of_ne m ρ c main_arg13 (by decide)]; after_results; exact w2_arg13 m ρ c
theorem w6_arg14 : W6 m ρ c (Proc.devRef .tc main_arg14) = (arg m c main_arg14) := by
  rw [W6_of_ne m ρ c main_arg14 (by decide)]; after_results; exact w2_arg14 m ρ c
theorem w6_src : W6 m ρ c (Proc.devRef .tc main_v1) = Cert.ReferenceIdeal.Stages.src (arg m c main_arg1) := by
  rw [W6_of_ne m ρ c main_v1 (by decide)]; after_results; exact w2_src m ρ c
theorem w6_dst : W6 m ρ c (Proc.devRef .tc main_v3) = Cert.ReferenceIdeal.Stages.dst (arg m c main_arg1) := by
  rw [W6_of_ne m ρ c main_v3 (by decide)]; after_results; exact w2_dst m ρ c

/-! ## Entering the second perceptron region: the neighbour sums of the first hidden layer -/

theorem w7_h : W7 m ρ c (Proc.devRef .tc main_v25) = h1 m c := by after_results; exact w6_h m ρ c
set_option maxHeartbeats 2000000 in
theorem w7_agg : W7 m ρ c (Proc.devRef .tc main_v35) = Cert.ReferenceIdeal.Stages.agg64 (h1 m c) (arg m c main_arg1) := by
  after_results; rw [w6_h, w6_src, w6_dst]; rfl
theorem w7_w1 : W7 m ρ c (Proc.devRef .tc main_arg9) = (arg m c main_arg9) := by after_results; exact w6_arg9 m ρ c
theorem w7_w2 : W7 m ρ c (Proc.devRef .tc main_arg11) = (arg m c main_arg11) := by after_results; exact w6_arg11 m ρ c
theorem w7_b1 : W7 m ρ c (Proc.devRef .tc main_v36) = Cert.ReferenceIdeal.Stages.row (arg m c main_arg10) := by
  after_results; rw [w6_arg10]; exact Cert.ReferenceIdeal.Forms.shapeCast_eq_row _ _
theorem w7_b2 : W7 m ρ c (Proc.devRef .tc main_v37) = Cert.ReferenceIdeal.Stages.row (arg m c main_arg12) := by
  after_results; rw [w6_arg12]; exact Cert.ReferenceIdeal.Forms.shapeCast_eq_row _ _

/-! ## Leaving it -/

theorem w8_z : W8 m ρ c (Proc.devRef .tc main_v38) = z2 m c := by
  refine (W8_arr m ρ c 6).trans ((RegionMlp2.final (V7 m ρ) c).trans ?_)
  show Cert.GinSpec.mlp (W7 m ρ c (Proc.devRef .tc main_v25)) (W7 m ρ c (Proc.devRef .tc main_v35)) (W7 m ρ c (Proc.devRef .tc main_arg9))
    (W7 m ρ c (Proc.devRef .tc main_v36)) (W7 m ρ c (Proc.devRef .tc main_arg11)) (W7 m ρ c (Proc.devRef .tc main_v37)) = _
  rw [w7_h, w7_agg, w7_w1, w7_b1, w7_w2, w7_b2]
  rfl
theorem w8_arg2 : W8 m ρ c (Proc.devRef .tc main_arg2) = (arg m c main_arg2) := by
  rw [W8_of_ne m ρ c main_arg2 (by decide)]; after_results; exact w6_arg2 m ρ c
theorem w8_arg13 : W8 m ρ c (Proc.devRef .tc main_arg13) = (arg m c main_arg13) := by
  rw [W8_of_ne m ρ c main_arg13 (by decide)]; after_results; exact w6_arg13 m ρ c
theorem w8_arg14 : W8 m ρ c (Proc.devRef .tc main_arg14) = (arg m c main_arg14) := by
  rw [W8_of_ne m ρ c main_arg14 (by decide)]; after_results; exact w6_arg14 m ρ c

/-! ## Entering the second normalisation region -/

theorem w11_z : W11 m ρ c (Proc.devRef .tc main_v38) = z2 m c := by after_results; exact w8_z m ρ c
theorem w11_mean : W11 m ρ c (Proc.devRef .tc main_v43) = Cert.ReferenceIdeal.Stages.row (Cert.ReferenceIdeal.Stages.mean (z2 m c)) := by
  after_results; rw [w8_z]; exact Cert.ReferenceIdeal.Forms.shapeCast_eq_row _ _
set_option maxHeartbeats 2000000 in
theorem w11_var : W11 m ρ c (Proc.devRef .tc main_v44) = Cert.ReferenceIdeal.Stages.row (Cert.ReferenceIdeal.Stages.var (z2 m c)) := by
  after_results_simp; rw [w8_z]; exact Cert.ReferenceIdeal.Forms.shapeCast_eq_row _ _
theorem w11_gamma : W11 m ρ c (Proc.devRef .tc main_v45) = Cert.ReferenceIdeal.Stages.row (arg m c main_arg13) := by
  after_results; rw [w8_arg13]; exact Cert.ReferenceIdeal.Forms.shapeCast_eq_row _ _
theorem w11_beta : W11 m ρ c (Proc.devRef .tc main_v46) = Cert.ReferenceIdeal.Stages.row (arg m c main_arg14) := by
  after_results; rw [w8_arg14]; exact Cert.ReferenceIdeal.Forms.shapeCast_eq_row _ _

/-! ## Leaving it, and the pooling -/

theorem w12_h : W12 m ρ c (Proc.devRef .tc main_v47) = h2 m c := by
  refine (W12_arr m ρ c 5).trans ((RegionBn2.final (V11 m ρ) c).trans ?_)
  show Cert.GinSpec.bnrelu (W11 m ρ c (Proc.devRef .tc main_v38)) (W11 m ρ c (Proc.devRef .tc main_v43)) (W11 m ρ c (Proc.devRef .tc main_v44))
    (W11 m ρ c (Proc.devRef .tc main_v45)) (W11 m ρ c (Proc.devRef .tc main_v46)) = _
  rw [w11_z, w11_mean, w11_var, w11_gamma, w11_beta]
  rfl
theorem w12_arg2 : W12 m ρ c (Proc.devRef .tc main_arg2) = (arg m c main_arg2) := by
  rw [W12_of_ne m ρ c main_arg2 (by decide)]; after_results; exact w8_arg2 m ρ c

/-- The result buffer at the end of the run: the graph-wise mean of the second hidden layer. -/
theorem w13_out : W13 m ρ c (Proc.devRef .tc main_v58) = Cert.ReferenceIdeal.Stages.pool (h2 m c) (arg m c main_arg2) := by
  after_results; rw [w12_h, w12_arg2]; rfl

/-! ## The two hidden layers are the reference's -/

theorem h1_eq : h1 m c = Cert.ReferenceIdeal.Stages.h1 (arg m c main_arg0) (arg m c main_arg1) (arg m c main_arg3) (arg m c main_arg4) (arg m c main_arg5) (arg m c main_arg6) (arg m c main_arg7) (arg m c main_arg8) := by
  unfold h1 z1 Cert.ReferenceIdeal.Stages.h1
  rw [Cert.ReferenceIdeal.Forms.bnrelu_eq, Cert.ReferenceIdeal.Forms.mlp128_eq]

theorem h2_eq : h2 m c = Cert.ReferenceIdeal.Stages.h2 (h1 m c) (arg m c main_arg1) (arg m c main_arg9) (arg m c main_arg10) (arg m c main_arg11) (arg m c main_arg12) (arg m c main_arg13) (arg m c main_arg14) := by
  unfold h2 z2 Cert.ReferenceIdeal.Stages.h2
  rw [Cert.ReferenceIdeal.Forms.bnrelu_eq, Cert.ReferenceIdeal.Forms.mlp64_eq]

/-- THE KERNEL'S RESULT is the reference's function of the argument arrays. -/
theorem result_eq : W13 m ρ c (Proc.devRef .tc main_v58)
    = Cert.ReferenceIdeal.Stages.out (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) := by
  rw [w13_out, h2_eq, h1_eq]
  rfl

end Cert.KernelIdeal.Value

end
-- ==== Proof.RefRun.lean ====
/-
  The reference program's @main is a straight line of host operations once the outlined relu, variance and
  where functions are inlined at their calls: `main c = seq ops`, each call's operations written over that
  call's own buffers. Every weakly fair execution of @main then terminates with each buffer at the fold of
  those operations, in order, over the launch contents.
-/
import proofs.«113887_j35519379538034_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's 163 operations, in order, the six calls inlined. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_arg0 main_v13 main_v14 (addf : (⟨S100000x128, .f32⟩ : BufTy).Contents (Elt F) → (⟨S100000x128, .f32⟩ : BufTy).Contents (Elt F) → (⟨S100000x128, .f32⟩ : BufTy).Contents (Elt F)),
    binary main_v14 main_arg3 main_v15 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg4 main_v16 (broadcastInDim S1x64 ![1] bcast_S64_S1x64_1 : (⟨S64, .f32⟩ : BufTy).Contents (Elt F) → (⟨S1x64, .f32⟩ : BufTy).Contents (Elt F)),
    unary main_v16 main_v17 (broadcastInDim S100000x64 ![0, 1] bcast_S1x64_S100000x64_0_1 : (⟨S1x64, .f32⟩ : BufTy).Contents (Elt F) → (⟨S100000x64, .f32⟩ : BufTy).Contents (Elt F)),
    binary main_v15 main_v17 main_v18 (addf : (⟨S100000x64, .f32⟩ : BufTy).Contents (Elt F) → (⟨S100000x64, .f32⟩ : BufTy).Contents (Elt F) → (⟨S100000x64, .f32⟩ : BufTy).Contents (Elt F)),
    TRef.nullary main_call0.cst (constant S_ .f32 0x00000000#32),
    TRef.unary main_call0.cst main_call0.v0 (broadcastInDim S100000x64 ![] bcast_S_S100000x64),
    TRef.binary (.of main_v18) main_call0.v0 main_call0.v1 maximumf,
    binary main_v19 main_arg5 main_v20 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v21 (broadcastInDim S1x64 ![1] bcast_S64_S1x64_1 : (⟨S64, .f32⟩ : BufTy).Contents (Elt F) → (⟨S1x64, .f32⟩ : BufTy).Contents (Elt F)),
    unary main_v21 main_v22 (broadcastInDim S100000x64 ![0, 1] bcast_S1x64_S100000x64_0_1 : (⟨S1x64, .f32⟩ : BufTy).Contents (Elt F) → (⟨S100000x64, .f32⟩ : BufTy).Contents (Elt F)),
    binary main_v20 main_v22 main_v23 (addf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x00000000#32),
    binary main_v23 main_cst_1 main_v24 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_2 (constant S_ .f32 0x47C35000#32),
    unary main_cst_2 main_v25 (broadcastInDim S64 ![] bcast_S_S64 : (⟨S_, .f32⟩ : BufTy).Contents (Elt F) → (⟨S64, .f32⟩ : BufTy).Contents (Elt F)),
    binary main_v24 main_v25 main_v26 (Host.divf : (⟨S64, .f32⟩ : BufTy).Contents (Elt F) → (⟨S64, .f32⟩ : BufTy).Contents (Elt F) → (⟨S64, .f32⟩ : BufTy).Contents (Elt F)),
    nullary main_c_3 (constantI S_ 32 0#32),
    TRef.nullary main_call1.cst (constant S_ .f32 0x00000000#32),
    TRef.binary (.of main_v23) main_call1.cst main_call1.v0 (fun x v => Host.reduceAdd x v reducesTo_S100000x64_S64_d0 h_S_),
    TRef.unary main_call1.v0 main_call1.v1 (broadcastInDim S1x64 ![1] bcast_S64_S1x64_1),
    TRef.nullary main_call1.cst_0 (constant S_ .f32 0x47C35000#32),
    TRef.unary main_call1.cst_0 main_call1.v2 (broadcastInDim S1x64 ![] bcast_S_S1x64),
    TRef.binary main_call1.v1 main_call1.v2 main_call1.v3 Host.divf,
    TRef.unary main_call1.v3 main_call1.v4 (broadcastInDim S100000x64 ![0, 1] bcast_S1x64_S100000x64_0_1),
    TRef.binary (.of main_v23) main_call1.v4 main_call1.v5 subf,
    TRef.binary main_call1.v5 main_call1.v5 main_call1.v6 mulf,
    TRef.unary (.of main_c_3) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x64_S64_d0 h_S_),
    TRef.unary main_call1.v8 main_call1.v10 (broadcastInDim S64 ![] bcast_S_S64),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S64 ![] bcast_S_S64),
    TRef.ternary main_call1.v12 main_call1.v11 main_call1.call0.v1 main_call1.call0.v2 (fun p a b => select (broadcastInDim S64 ![] bcast_S_S64 p) a b),
    unary main_v26 main_v28 (broadcastInDim S1x64 ![1] bcast_S64_S1x64_1 : (⟨S64, .f32⟩ : BufTy).Contents (Elt F) → (⟨S1x64, .f32⟩ : BufTy).Contents (Elt F)),
    unary main_v28 main_v29 (broadcastInDim S100000x64 ![0, 1] bcast_S1x64_S100000x64_0_1 : (⟨S1x64, .f32⟩ : BufTy).Contents (Elt F) → (⟨S100000x64, .f32⟩ : BufTy).Contents (Elt F)),
    binary main_v23 main_v29 main_v30 (subf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x3727C5AC#32),
    unary main_cst_4 main_v31 (broadcastInDim S64 ![] bcast_S_S64 : (⟨S_, .f32⟩ : BufTy).Contents (Elt F) → (⟨S64, .f32⟩ : BufTy).Contents (Elt F)),
    binary main_v27 main_v31 main_v32 (addf : (⟨S64, .f32⟩ : BufTy).Contents (Elt F) → (⟨S64, .f32⟩ : BufTy).Contents (Elt F) → (⟨S64, .f32⟩ : BufTy).Contents (Elt F)),
    unary main_v32 main_v33 (Host.rsqrt : (⟨S64, .f32⟩ : BufTy).Contents (Elt F) → (⟨S64, .f32⟩ : BufTy).Contents (Elt F)),
    unary main_v33 main_v34 (broadcastInDim S1x64 ![1] bcast_S64_S1x64_1 : (⟨S64, .f32⟩ : BufTy).Contents (Elt F) → (⟨S1x64, .f32⟩ : BufTy).Contents (Elt F)),
    unary main_v34 main_v35 (broadcastInDim S100000x64 ![0, 1] bcast_S1x64_S100000x64_0_1 : (⟨S1x64, .f32⟩ : BufTy).Contents (Elt F) → (⟨S100000x64, .f32⟩ : BufTy).Contents (Elt F)),
    binary main_v30 main_v35 main_v36 (mulf : (⟨S100000x64, .f32⟩ : BufTy).Contents (Elt F) → (⟨S100000x64, .f32⟩ : BufTy).Contents (Elt F) → (⟨S100000x64, .f32⟩ : BufTy).Contents (Elt F)),
    unary main_arg7 main_v37 (broadcastInDim S1x64 ![1] bcast_S64_S1x64_1 : (⟨S64, .f32⟩ : BufTy).Contents (Elt F) → (⟨S1x64, .f32⟩ : BufTy).Contents (Elt F)),
    unary main_v37 main_v38 (broadcastInDim S100000x64 ![0, 1] bcast_S1x64_S100000x64_0_1 : (⟨S1x64, .f32⟩ : BufTy).Contents (Elt F) → (⟨S100000x64, .f32⟩ : BufTy).Contents (Elt F)),
    binary main_v36 main_v38 main_v39 (mulf : (⟨S100000x64, .f32⟩ : BufTy).Contents (Elt F) → (⟨S100000x64, .f32⟩ : BufTy).Contents (Elt F) → (⟨S100000x64, .f32⟩ : BufTy).Contents (Elt F)),
    unary main_arg8 main_v40 (broadcastInDim S1x64 ![1] bcast_S64_S1x64_1 : (⟨S64, .f32⟩ : BufTy).Contents (Elt F) → (⟨S1x64, .f32⟩ : BufTy).Contents (Elt F)),
    unary main_v40 main_v41 (broadcastInDim S100000x64 ![0, 1] bcast_S1x64_S100000x64_0_1 : (⟨S1x64, .f32⟩ : BufTy).Contents (Elt F) → (⟨S100000x64, .f32⟩ : BufTy).Contents (Elt F)),
    binary main_v39 main_v41 main_v42 (addf : (⟨S100000x64, .f32⟩ : BufTy).Contents (Elt F) → (⟨S100000x64, .f32⟩ : BufTy).Contents (Elt F) → (⟨S100000x64, .f32⟩ : BufTy).Contents (Elt F)),
    TRef.nullary main_call2.cst (constant S_ .f32 0x00000000#32),
    TRef.unary main_call2.cst main_call2.v0 (broadcastInDim S100000x64 ![] bcast_S_S100000x64),
    TRef.binary (.of main_v42) main_call2.v0 main_call2.v1 maximumf,
    nullary main_c_5 (constantI S_ 32 0#32),
    unary main_c_5 main_v44 (broadcastInDim S1600000 ![] bcast_S_S1600000 : (⟨S_, .i32⟩ : BufTy).Contents (Elt F) → (⟨S1600000, .i32⟩ : BufTy).Contents (Elt F)),
    binary main_v1 main_v44 main_v45 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v46 (broadcastInDim S1600000 ![] bcast_S_S1600000 : (⟨S_, .i32⟩ : BufTy).Contents (Elt F) → (⟨S1600000, .i32⟩ : BufTy).Contents (Elt F)),
    binary main_v1 main_v46 main_v47 (addi : (⟨S1600000, .i32⟩ : BufTy).Contents (Elt F) → (⟨S1600000, .i32⟩ : BufTy).Contents (Elt F) → (⟨S1600000, .i32⟩ : BufTy).Contents (Elt F)),
    ternary main_v45 main_v47 main_v1 main_v48 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v48 main_v49 (broadcastInDim S1600000x1 ![0] bcast_S1600000_S1600000x1_0 : (⟨S1600000, .i32⟩ : BufTy).Contents (Elt F) → (⟨S1600000x1, .i32⟩ : BufTy).Contents (Elt F)),
    binary main_v43 main_v49 main_v50 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_7 (constant S_ .f32 0x00000000#32),
    unary main_cst_7 main_v51 (broadcastInDim S100000x64 ![] bcast_S_S100000x64 : (⟨S_, .f32⟩ : BufTy).Contents (Elt F) → (⟨S100000x64, .f32⟩ : BufTy).Contents (Elt F)),
    unary main_v3 main_v52 (broadcastInDim S1600000x1 ![0] bcast_S1600000_S1600000x1_0 : (⟨S1600000, .i32⟩ : BufTy).Contents (Elt F) → (⟨S1600000x1, .i32⟩ : BufTy).Contents (Elt F)),
    ternary main_v51 main_v52 main_v50 main_v53 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v43 main_v53 main_v54 (addf : (⟨S100000x64, .f32⟩ : BufTy).Contents (Elt F) → (⟨S100000x64, .f32⟩ : BufTy).Contents (Elt F) → (⟨S100000x64, .f32⟩ : BufTy).Contents (Elt F)),
    binary main_v54 main_arg9 main_v55 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg10 main_v56 (broadcastInDim S1x64 ![1] bcast_S64_S1x64_1 : (⟨S64, .f32⟩ : BufTy).Contents (Elt F) → (⟨S1x64, .f32⟩ : BufTy).Contents (Elt F)),
    unary main_v56 main_v57 (broadcastInDim S100000x64 ![0, 1] bcast_S1x64_S100000x64_0_1 : (⟨S1x64, .f32⟩ : BufTy).Contents (Elt F) → (⟨S100000x64, .f32⟩ : BufTy).Contents (Elt F)),
    binary main_v55 main_v57 main_v58 (addf : (⟨S100000x64, .f32⟩ : BufTy).Contents (Elt F) → (⟨S100000x64, .f32⟩ : BufTy).Contents (Elt F) → (⟨S100000x64, .f32⟩ : BufTy).Contents (Elt F)),
    TRef.nullary main_call3.cst (constant S_ .f32 0x00000000#32),
    TRef.unary main_call3.cst main_call3.v0 (broadcastInDim S100000x64 ![] bcast_S_S100000x64),
    TRef.binary (.of main_v58) main_call3.v0 main_call3.v1 maximumf,
    binary main_v59 main_arg11 main_v60 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg12 main_v61 (broadcastInDim S1x64 ![1] bcast_S64_S1x64_1 : (⟨S64, .f32⟩ : BufTy).Contents (Elt F) → (⟨S1x64, .f32⟩ : BufTy).Contents (Elt F)),
    unary main_v61 main_v62 (broadcastInDim S100000x64 ![0, 1] bcast_S1x64_S100000x64_0_1 : (⟨S1x64, .f32⟩ : BufTy).Contents (Elt F) → (⟨S100000x64, .f32⟩ : BufTy).Contents (Elt F)),
    binary main_v60 main_v62 main_v63 (addf : (⟨S100000x64, .f32⟩ : BufTy).Contents (Elt F) → (⟨S100000x64, .f32⟩ : BufTy).Contents (Elt F) → (⟨S100000x64, .f32⟩ : BufTy).Contents (Elt F)),
    nullary main_cst_8 (constant S_ .f32 0x00000000#32),
    binary main_v63 main_cst_8 main_v64 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_9 (constant S_ .f32 0x47C35000#32),
    unary main_cst_9 main_v65 (broadcastInDim S64 ![] bcast_S_S64 : (⟨S_, .f32⟩ : BufTy).Contents (Elt F) → (⟨S64, .f32⟩ : BufTy).Contents (Elt F)),
    binary main_v64 main_v65 main_v66 (Host.divf : (⟨S64, .f32⟩ : BufTy).Contents (Elt F) → (⟨S64, .f32⟩ : BufTy).Contents (Elt F) → (⟨S64, .f32⟩ : BufTy).Contents (Elt F)),
    nullary main_c_10 (constantI S_ 32 0#32),
    TRef.nullary main_call4.cst (constant S_ .f32 0x00000000#32),
    TRef.binary (.of main_v63) main_call4.cst main_call4.v0 (fun x v => Host.reduceAdd x v reducesTo_S100000x64_S64_d0 h_S_),
    TRef.unary main_call4.v0 main_call4.v1 (broadcastInDim S1x64 ![1] bcast_S64_S1x64_1),
    TRef.nullary main_call4.cst_0 (constant S_ .f32 0x47C35000#32),
    TRef.unary main_call4.cst_0 main_call4.v2 (broadcastInDim S1x64 ![] bcast_S_S1x64),
    TRef.binary main_call4.v1 main_call4.v2 main_call4.v3 Host.divf,
    TRef.unary main_call4.v3 main_call4.v4 (broadcastInDim S100000x64 ![0, 1] bcast_S1x64_S100000x64_0_1),
    TRef.binary (.of main_v63) main_call4.v4 main_call4.v5 subf,
    TRef.binary main_call4.v5 main_call4.v5 main_call4.v6 mulf,
    TRef.unary (.of main_c_10) main_call4.v7 (sitofp .f32),
    TRef.nullary main_call4.cst_1 (constant S_ .f32 0x47C35000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x64_S64_d0 h_S_),
    TRef.unary main_call4.v8 main_call4.v10 (broadcastInDim S64 ![] bcast_S_S64),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S64 ![] bcast_S_S64),
    TRef.ternary main_call4.v12 main_call4.v11 main_call4.call0.v1 main_call4.call0.v2 (fun p a b => select (broadcastInDim S64 ![] bcast_S_S64 p) a b),
    unary main_v66 main_v68 (broadcastInDim S1x64 ![1] bcast_S64_S1x64_1 : (⟨S64, .f32⟩ : BufTy).Contents (Elt F) → (⟨S1x64, .f32⟩ : BufTy).Contents (Elt F)),
    unary main_v68 main_v69 (broadcastInDim S100000x64 ![0, 1] bcast_S1x64_S100000x64_0_1 : (⟨S1x64, .f32⟩ : BufTy).Contents (Elt F) → (⟨S100000x64, .f32⟩ : BufTy).Contents (Elt F)),
    binary main_v63 main_v69 main_v70 (subf : (⟨S100000x64, .f32⟩ : BufTy).Contents (Elt F) → (⟨S100000x64, .f32⟩ : BufTy).Contents (Elt F) → (⟨S100000x64, .f32⟩ : BufTy).Contents (Elt F)),
    nullary main_cst_11 (constant S_ .f32 0x3727C5AC#32),
    unary main_cst_11 main_v71 (broadcastInDim S64 ![] bcast_S_S64 : (⟨S_, .f32⟩ : BufTy).Contents (Elt F) → (⟨S64, .f32⟩ : BufTy).Contents (Elt F)),
    binary main_v67 main_v71 main_v72 (addf : (⟨S64, .f32⟩ : BufTy).Contents (Elt F) → (⟨S64, .f32⟩ : BufTy).Contents (Elt F) → (⟨S64, .f32⟩ : BufTy).Contents (Elt F)),
    unary main_v72 main_v73 (Host.rsqrt : (⟨S64, .f32⟩ : BufTy).Contents (Elt F) → (⟨S64, .f32⟩ : BufTy).Contents (Elt F)),
    unary main_v73 main_v74 (broadcastInDim S1x64 ![1] bcast_S64_S1x64_1 : (⟨S64, .f32⟩ : BufTy).Contents (Elt F) → (⟨S1x64, .f32⟩ : BufTy).Contents (Elt F)),
    unary main_v74 main_v75 (broadcastInDim S100000x64 ![0, 1] bcast_S1x64_S100000x64_0_1 : (⟨S1x64, .f32⟩ : BufTy).Contents (Elt F) → (⟨S100000x64, .f32⟩ : BufTy).Contents (Elt F)),
    binary main_v70 main_v75 main_v76 (mulf : (⟨S100000x64, .f32⟩ : BufTy).Contents (Elt F) → (⟨S100000x64, .f32⟩ : BufTy).Contents (Elt F) → (⟨S100000x64, .f32⟩ : BufTy).Contents (Elt F)),
    unary main_arg13 main_v77 (broadcastInDim S1x64 ![1] bcast_S64_S1x64_1 : (⟨S64, .f32⟩ : BufTy).Contents (Elt F) → (⟨S1x64, .f32⟩ : BufTy).Contents (Elt F)),
    unary main_v77 main_v78 (broadcastInDim S100000x64 ![0, 1] bcast_S1x64_S100000x64_0_1 : (⟨S1x64, .f32⟩ : BufTy).Contents (Elt F) → (⟨S100000x64, .f32⟩ : BufTy).Contents (Elt F)),
    binary main_v76 main_v78 main_v79 (mulf : (⟨S100000x64, .f32⟩ : BufTy).Contents (Elt F) → (⟨S100000x64, .f32⟩ : BufTy).Contents (Elt F) → (⟨S100000x64, .f32⟩ : BufTy).Contents (Elt F)),
    unary main_arg14 main_v80 (broadcastInDim S1x64 ![1] bcast_S64_S1x64_1 : (⟨S64, .f32⟩ : BufTy).Contents (Elt F) → (⟨S1x64, .f32⟩ : BufTy).Contents (Elt F)),
    unary main_v80 main_v81 (broadcastInDim S100000x64 ![0, 1] bcast_S1x64_S100000x64_0_1 : (⟨S1x64, .f32⟩ : BufTy).Contents (Elt F) → (⟨S100000x64, .f32⟩ : BufTy).Contents (Elt F)),
    binary main_v79 main_v81 main_v82 (addf : (⟨S100000x64, .f32⟩ : BufTy).Contents (Elt F) → (⟨S100000x64, .f32⟩ : BufTy).Contents (Elt F) → (⟨S100000x64, .f32⟩ : BufTy).Contents (Elt F)),
    TRef.nullary main_call5.cst (constant S_ .f32 0x00000000#32),
    TRef.unary main_call5.cst main_call5.v0 (broadcastInDim S100000x64 ![] bcast_S_S100000x64),
    TRef.binary (.of main_v82) main_call5.v0 main_call5.v1 maximumf,
    nullary main_cst_12 (constant S_ .f32 0x00000000#32),
    unary main_cst_12 main_v84 (broadcastInDim S512x64 ![] bcast_S_S512x64 : (⟨S_, .f32⟩ : BufTy).Contents (Elt F) → (⟨S512x64, .f32⟩ : BufTy).Contents (Elt F)),
    unary main_arg2 main_v85 (broadcastInDim S100000x1 ![0] bcast_S100000_S100000x1_0 : (⟨S100000, .i32⟩ : BufTy).Contents (Elt F) → (⟨S100000x1, .i32⟩ : BufTy).Contents (Elt F)),
    ternary main_v84 main_v85 main_v83 main_v86 ((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F)),
    nullary main_cst_13 (constant S_ .f32 0x3F800000#32),
    unary main_cst_13 main_v87 (broadcastInDim S100000x1 ![] bcast_S_S100000x1 : (⟨S_, .f32⟩ : BufTy).Contents (Elt F) → (⟨S100000x1, .f32⟩ : BufTy).Contents (Elt F)),
    nullary main_cst_14 (constant S_ .f32 0x00000000#32),
    unary main_cst_14 main_v88 (broadcastInDim S512x1 ![] bcast_S_S512x1 : (⟨S_, .f32⟩ : BufTy).Contents (Elt F) → (⟨S512x1, .f32⟩ : BufTy).Contents (Elt F)),
    unary main_arg2 main_v89 (broadcastInDim S100000x1 ![0] bcast_S100000_S100000x1_0 : (⟨S100000, .i32⟩ : BufTy).Contents (Elt F) → (⟨S100000x1, .i32⟩ : BufTy).Contents (Elt F)),
    ternary main_v88 main_v89 main_v87 main_v90 ((fun x i u => Host.scatterAdd scatter_S512x1_S100000x1_S100000x1_1_0_0_1 x i u) : (⟨S512x1, .f32⟩ : BufTy).Contents (Elt F) → (⟨S100000x1, .i32⟩ : BufTy).Contents (Elt F) → (⟨S100000x1, .f32⟩ : BufTy).Contents (Elt F) → (⟨S512x1, .f32⟩ : BufTy).Contents (Elt F)),
    nullary main_cst_15 (constant S_ .f32 0x3F800000#32),
    unary main_cst_15 main_v91 (broadcastInDim S512x1 ![] bcast_S_S512x1 : (⟨S_, .f32⟩ : BufTy).Contents (Elt F) → (⟨S512x1, .f32⟩ : BufTy).Contents (Elt F)),
    binary main_v90 main_v91 main_v92 (maximumf : (⟨S512x1, .f32⟩ : BufTy).Contents (Elt F) → (⟨S512x1, .f32⟩ : BufTy).Contents (Elt F) → (⟨S512x1, .f32⟩ : BufTy).Contents (Elt F)),
    unary main_v92 main_v93 (broadcastInDim S512x64 ![0, 1] bcast_S512x1_S512x64_0_1 : (⟨S512x1, .f32⟩ : BufTy).Contents (Elt F) → (⟨S512x64, .f32⟩ : BufTy).Contents (Elt F)),
    binary main_v86 main_v93 main_v94 (Host.divf : (⟨S512x64, .f32⟩ : BufTy).Contents (Elt F) → (⟨S512x64, .f32⟩ : BufTy).Contents (Elt F) → (⟨S512x64, .f32⟩ : BufTy).Contents (Elt F)) ]

set_option maxRecDepth 8192 in
set_option maxHeartbeats 4000000 in
/-- @main is that straight line: the functions unfolded at their calls, both sides are one chain of steps
    once sequencing is reassociated. -/
theorem main_eq (c : Dev nD) : main (F := F) c = seq ops := by
  simp only [main, main_part0, main_part1, fn_relu.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    binary_bufs_sub ..⟩

/-- On every device, for any float values, from any memory with zero counters: every weakly fair execution of
    @main terminates with each buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.HostRun

end
-- ==== Proof.RefValue.lean ====
/-
  What the reference's straight line of host operations leaves at its result buffer, read as a function of the
  fifteen arguments' launch contents: the staged computation `Stages.out`; and every argument buffer keeps its
  launch contents, no operation writing it. Hence every weakly fair execution of the reference ends with the result
  at `Stages.out` of the arguments as launched and the arguments unchanged.
-/
import proofs.«113887_j35519379538034_1_alg».proof.Proof.RefRun
import proofs.«113887_j35519379538034_1_alg».proof.Proof.RefStages

noncomputable section

namespace Cert.ReferenceIdeal.HostValue

open Cert.ReferenceIdeal Cert.ReferenceIdeal.Gen Idealize.ShloMosaic Idealize.ShloMosaic.TcCoe Idealize.SL.Sem Idealize.ShloMosaic.StableHlo

attribute [local irreducible] Host.gather Host.scatterAdd Host.reduceAdd in
set_option maxRecDepth 16384 in
set_option maxHeartbeats 8000000 in
/-- The fold at the result buffer is the staged computation of the arguments' contents: each operation's result
    read at its own buffer, the rest passed through, and the stages unfolded. -/
theorem out_eq (V : Valuation τ sig (Elt Ideal)) :
    after (HostRun.ops (F := Ideal)) V (Proc.devRef .tc main_v94)
      = Stages.out (V (Proc.devRef .tc main_arg0))
        (V (Proc.devRef .tc main_arg1))
        (V (Proc.devRef .tc main_arg2))
        (V (Proc.devRef .tc main_arg3))
        (V (Proc.devRef .tc main_arg4))
        (V (Proc.devRef .tc main_arg5))
        (V (Proc.devRef .tc main_arg6))
        (V (Proc.devRef .tc main_arg7))
        (V (Proc.devRef .tc main_arg8))
        (V (Proc.devRef .tc main_arg9))
        (V (Proc.devRef .tc main_arg10))
        (V (Proc.devRef .tc main_arg11))
        (V (Proc.devRef .tc main_arg12))
        (V (Proc.devRef .tc main_arg13))
        (V (Proc.devRef .tc main_arg14)) := by
  after_results_simp
  rfl

/-! No operation writes an argument buffer: the fold leaves each at what it held. -/

set_option maxRecDepth 16384 in
set_option maxHeartbeats 4000000 in
theorem arg0_eq (V : Valuation τ sig (Elt Ideal)) :
    after (HostRun.ops (F := Ideal)) V (Proc.devRef .tc main_arg0) = V (Proc.devRef .tc main_arg0) := by
  after_results_simp

set_option maxRecDepth 16384 in
set_option maxHeartbeats 4000000 in
theorem arg1_eq (V : Valuation τ sig (Elt Ideal)) :
    after (HostRun.ops (F := Ideal)) V (Proc.devRef .tc main_arg1) = V (Proc.devRef .tc main_arg1) := by
  after_results_simp

set_option maxRecDepth 16384 in
set_option maxHeartbeats 4000000 in
theorem arg2_eq (V : Valuation τ sig (Elt Ideal)) :
    after (HostRun.ops (F := Ideal)) V (Proc.devRef .tc main_arg2) = V (Proc.devRef .tc main_arg2) := by
  after_results_simp

set_option maxRecDepth 16384 in
set_option maxHeartbeats 4000000 in
theorem arg3_eq (V : Valuation τ sig (Elt Ideal)) :
    after (HostRun.ops (F := Ideal)) V (Proc.devRef .tc main_arg3) = V (Proc.devRef .tc main_arg3) := by
  after_results_simp

set_option maxRecDepth 16384 in
set_option maxHeartbeats 4000000 in
theorem arg4_eq (V : Valuation τ sig (Elt Ideal)) :
    after (HostRun.ops (F := Ideal)) V (Proc.devRef .tc main_arg4) = V (Proc.devRef .tc main_arg4) := by
  after_results_simp

set_option maxRecDepth 16384 in
set_option maxHeartbeats 4000000 in
theorem arg5_eq (V : Valuation τ sig (Elt Ideal)) :
    after (HostRun.ops (F := Ideal)) V (Proc.devRef .tc main_arg5) = V (Proc.devRef .tc main_arg5) := by
  after_results_simp

set_option maxRecDepth 16384 in
set_option maxHeartbeats 4000000 in
theorem arg6_eq (V : Valuation τ sig (Elt Ideal)) :
    after (HostRun.ops (F := Ideal)) V (Proc.devRef .tc main_arg6) = V (Proc.devRef .tc main_arg6) := by
  after_results_simp

set_option maxRecDepth 16384 in
set_option maxHeartbeats 4000000 in
theorem arg7_eq (V : Valuation τ sig (Elt Ideal)) :
    after (HostRun.ops (F := Ideal)) V (Proc.devRef .tc main_arg7) = V (Proc.devRef .tc main_arg7) := by
  after_results_simp

set_option maxRecDepth 16384 in
set_option maxHeartbeats 4000000 in
theorem arg8_eq (V : Valuation τ sig (Elt Ideal)) :
    after (HostRun.ops (F := Ideal)) V (Proc.devRef .tc main_arg8) = V (Proc.devRef .tc main_arg8) := by
  after_results_simp

set_option maxRecDepth 16384 in
set_option maxHeartbeats 4000000 in
theorem arg9_eq (V : Valuation τ sig (Elt Ideal)) :
    after (HostRun.ops (F := Ideal)) V (Proc.devRef .tc main_arg9) = V (Proc.devRef .tc main_arg9) := by
  after_results_simp

set_option maxRecDepth 16384 in
set_option maxHeartbeats 4000000 in
theorem arg10_eq (V : Valuation τ sig (Elt Ideal)) :
    after (HostRun.ops (F := Ideal)) V (Proc.devRef .tc main_arg10) = V (Proc.devRef .tc main_arg10) := by
  after_results_simp

set_option maxRecDepth 16384 in
set_option maxHeartbeats 4000000 in
theorem arg11_eq (V : Valuation τ sig (Elt Ideal)) :
    after (HostRun.ops (F := Ideal)) V (Proc.devRef .tc main_arg11) = V (Proc.devRef .tc main_arg11) := by
  after_results_simp

set_option maxRecDepth 16384 in
set_option maxHeartbeats 4000000 in
theorem arg12_eq (V : Valuation τ sig (Elt Ideal)) :
    after (HostRun.ops (F := Ideal)) V (Proc.devRef .tc main_arg12) = V (Proc.devRef .tc main_arg12) := by
  after_results_simp

set_option maxRecDepth 16384 in
set_option maxHeartbeats 4000000 in
theorem arg13_eq (V : Valuation τ sig (Elt Ideal)) :
    after (HostRun.ops (F := Ideal)) V (Proc.devRef .tc main_arg13) = V (Proc.devRef .tc main_arg13) := by
  after_results_simp

set_option maxRecDepth 16384 in
set_option maxHeartbeats 4000000 in
theorem arg14_eq (V : Valuation τ sig (Elt Ideal)) :
    after (HostRun.ops (F := Ideal)) V (Proc.devRef .tc main_arg14) = V (Proc.devRef .tc main_arg14) := by
  after_results_simp

/-- At the compiled mesh, from any memory with zero counters: every weakly fair execution of the reference's
    @main terminates with the result buffer at the staged computation of the arguments as launched, and every
    argument unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v94) = Stages.out
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c main_v94).trans (out_eq _), (h c main_arg0).trans (arg0_eq _), (h c main_arg1).trans (arg1_eq _),
     (h c main_arg2).trans (arg2_eq _), (h c main_arg3).trans (arg3_eq _), (h c main_arg4).trans (arg4_eq _),
     (h c main_arg5).trans (arg5_eq _), (h c main_arg6).trans (arg6_eq _), (h c main_arg7).trans (arg7_eq _),
     (h c main_arg8).trans (arg8_eq _), (h c main_arg9).trans (arg9_eq _), (h c main_arg10).trans (arg10_eq _),
     (h c main_arg11).trans (arg11_eq _), (h c main_arg12).trans (arg12_eq _), (h c main_arg13).trans (arg13_eq _),
     (h c main_arg14).trans (arg14_eq _)⟩)
    (HostRun.run_all m ρ)

end Cert.ReferenceIdeal.HostValue

end
-- ==== Proof.lean ====
/-
  A two-layer graph-isomorphism encoder with batch normalisation and a per-graph mean pool, computed by a program whose
  two perceptrons and two normalisations are pipelined kernels over twenty tiles of 5000 nodes, against the plain array
  program. Over the extended reals the two compute one function of the arguments. The neighbour sums, the column means
  and variances and the pooling are the same host operations in both programs and are never opened; a perceptron tile
  is the rows of the whole perceptron because a row of x·W depends on that row of x only, and a matrix-unit product into
  zeros and a host dot product are the same sum over the contracted axis; a normalisation tile is the rows of the whole
  normalisation. Rounding to bf16 on the way into the matrix unit is the identity at the ideal instance, so no rewrite
  of the kernel was needed and nothing is owed for the idealisation. Neither finiteness of the inputs nor any range
  of the integer inputs is used.
-/
import proofs.«113887_j35519379538034_1_alg».proof.Defs
import proofs.«113887_j35519379538034_1_alg».proof.Proof.Gen.Kernel
import proofs.«113887_j35519379538034_1_alg».proof.Proof.Gen.Kernel.Frame
import proofs.«113887_j35519379538034_1_alg».proof.Proof.Gen.KernelIdeal
import proofs.«113887_j35519379538034_1_alg».proof.Proof.Gen.KernelIdeal.Frame
import proofs.«113887_j35519379538034_1_alg».proof.Proof.Gen.ReferenceIdeal
import proofs.«113887_j35519379538034_1_alg».proof.Proof.Gen.Pre_finite_inputs
import proofs.«113887_j35519379538034_1_alg».proof.Proof.KernelRun
import proofs.«113887_j35519379538034_1_alg».proof.Proof.KernelValue
import proofs.«113887_j35519379538034_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.HostValue.run m ρ)

/-- Both programs end with the reference's function of the argument arrays in their result buffers. -/
theorem algebraic : Cert.algebraic_KernelIdeal_ReferenceIdeal := by
  intro m ρ m' ρ' _ hagree
  refine ⟨fun c => Cert.ReferenceIdeal.Stages.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Value.result_eq m ρ c), (h c).2⟩) (Cert.KernelIdeal.ValueRun.run m ρ)
  · refine (θ_run Cert.ReferenceIdeal.defs _ _).mono (fun r h c => ⟨(h c).1.trans ?_, (h c).2⟩) (Cert.ReferenceIdeal.HostValue.run m' ρ')
    obtain ⟨e0, e1, e2, e3, e4, e5, e6, e7, e8, e9, e10, e11, e12, e13, e14⟩ := hagree c
    rw [e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
